-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x800000 : Shape := ⟨2, ![2, 800000]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x1 .f32) (main_arg9 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x1 .f32) (main_arg1 : IVec S2x800000 32) (main_arg2 : FVec F S1x256 .f32) (main_arg3 : FVec F S256 .f32) (main_arg4 : FVec F S256x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S50000x1 : Shape := ⟨2, ![50000, 1]⟩
abbrev S2x800000 : Shape := ⟨2, ![2, 800000]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x1 : Shape := ⟨2, ![2000, 1]⟩
abbrev S2000x256 : Shape := ⟨2, ![2000, 256]⟩
abbrev S850000x256 : Shape := ⟨2, ![850000, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S1x1 : Shape := ⟨2, ![1, 1]⟩

abbrev nBuf : Space → Nat
  | .hbm => 101
  | .vmem => 31
  | .smem => 0
  | _ => 0

abbrev bufTy : (tb : Table) → Fin (tcTables nBuf tb) → BufTy
  | .hbm, ⟨0, _⟩ => ⟨S50000x1, .f32⟩
  | .hbm, ⟨1, _⟩ => ⟨S2x800000, .i32⟩
  | .hbm, ⟨2, _⟩ => ⟨S1x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x256, .bf16⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000x256, .bf16⟩
  | .hbm, ⟨44, _⟩ => ⟨S850000x256, .f32⟩
  | .hbm, ⟨45, _⟩ => ⟨S_, .f32⟩
  | .hbm, ⟨46, _⟩ => ⟨S50000x256, .f32⟩
  | .hbm, ⟨47, _⟩ => ⟨S850000x1, .i32⟩
  | .hbm, ⟨48, _⟩ => ⟨S50000x256, .f32⟩
  | .hbm, ⟨49, _⟩ => ⟨S1x256, .f32⟩
  | .hbm, ⟨50, _⟩ => ⟨S50000x128, .bf16⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .bf16⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x64, .bf16⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .bf16⟩
  | .hbm, ⟨76, _⟩ => ⟨S850000x64, .f32⟩
  | .hbm, ⟨77, _⟩ => ⟨S_, .f32⟩
  | .hbm, ⟨78, _⟩ => ⟨S50000x64, .f32⟩
  | .hbm, ⟨79, _⟩ => ⟨S850000x1, .i32⟩
  | .hbm, ⟨80, _⟩ => ⟨S50000x64, .f32⟩
  | .hbm, ⟨81, _⟩ => ⟨S1x64, .f32⟩
  | .hbm, ⟨82, _⟩ => ⟨S50000x1, .bf16⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x1, .bf16⟩
  | .hbm, ⟨92, _⟩ => ⟨S850000x1, .f32⟩
  | .hbm, ⟨93, _⟩ => ⟨S_, .f32⟩
  | .hbm, ⟨94, _⟩ => ⟨S50000x1, .f32⟩
  | .hbm, ⟨95, _⟩ => ⟨S850000x1, .i32⟩
  | .hbm, ⟨96, _⟩ => ⟨S50000x1, .f32⟩
  | .hbm, ⟨97, _⟩ => ⟨S50000x1, .f32⟩
  | .hbm, ⟨98, _⟩ => ⟨S1x1, .f32⟩
  | .hbm, ⟨99, _⟩ => ⟨S50000x1, .f32⟩
  | .hbm, ⟨100, _⟩ => ⟨S50000x1, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S1x256, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S128x64, .f32⟩
  | .local _ .vmem, ⟨21, _⟩ => ⟨S2000x64, .bf16⟩
  | .local _ .vmem, ⟨22, _⟩ => ⟨S2000x64, .bf16⟩
  | .local _ .vmem, ⟨23, _⟩ => ⟨S2000x64, .f32⟩
  | .local _ .vmem, ⟨24, _⟩ => ⟨S2000x64, .f32⟩
  | .local _ .vmem, ⟨25, _⟩ => ⟨S2000x1, .f32⟩
  | .local _ .vmem, ⟨26, _⟩ => ⟨S2000x1, .f32⟩
  | .local _ .vmem, ⟨27, _⟩ => ⟨S1x64, .f32⟩
  | .local _ .vmem, ⟨28, _⟩ => ⟨S64x1, .f32⟩
  | .local _ .vmem, ⟨29, _⟩ => ⟨S2000x1, .bf16⟩
  | .local _ .vmem, ⟨30, _⟩ => ⟨S2000x1, .bf16⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x1 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  packedbf16_S2000x1_S2000x1_0_0 : (Rect.unit (s := S2000x1) ![0, 0] S2000x1.size inb_S2000x1_S2000x1_0_0).PackedRows (EltTy.packing .bf16)
  bcast_S_S50000x1 : S_.BroadcastsInDim S50000x1 (![] : Fin 0 → Fin S50000x1.rank)
  shapeCasts_S1_S1x1 : S1.ShapeCasts S1x1
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  dot_S2000x1_S1x256_S2000x256_1_0_0_1_n_n_wf : DotDims.WF S2000x1 S1x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x1_S2000x1_1_0_0_1_n_n_wf : DotDims.WF S2000x64 S64x1 S2000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S50000x1.size a
  hwx0_0 : ∀ i : grid0.Coords, EltTy.bits .f32 = 32 ∨ (Rect.block (s := S50000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .bf16 = 32 ∨ (Rect.block (s := S50000x64) S2000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x1.size a ≤ S50000x1.size a
  hwx3_4 : ∀ i : grid3.Coords, EltTy.bits .bf16 = 32 ∨ (Rect.block (s := S50000x1) S2000x1.size (cc3_transform_4 i) (hinb3_4 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x1_S1x256_S2000x256_1_0_0_1_n_n : DotDims S2000x1 S1x256 S2000x256 where
  lhsContracting := [1]
  rhsContracting := [0]
  lhsNonContracting := [0]
  rhsNonContracting := [1]
  lhsBatch := []
  rhsBatch := []
  wf := dot_S2000x1_S1x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S2000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x1 : Shape := ⟨2, ![50000, 1]⟩
abbrev S2x800000 : Shape := ⟨2, ![2, 800000]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S50000x1, .f32⟩
  | 1 => ⟨S2x800000, .i32⟩
  | 2 => ⟨S1x256, .f32⟩
  | 3 => ⟨S256, .f32⟩
  | 4 => ⟨S256x128, .f32⟩
  | 5 => ⟨S128, .f32⟩
  | 6 => ⟨S128x64, .f32⟩
  | 7 => ⟨S64, .f32⟩
  | 8 => ⟨S64x1, .f32⟩
  | 9 => ⟨S1, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x256, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x256, .f32⟩
  | 62 => ⟨S850000x1, .f32⟩
  | 63 => ⟨S850000x256, .f32⟩
  | 64 => ⟨S850000x256, .f32⟩
  | 65 => ⟨S_, .f32⟩
  | 66 => ⟨S50000x256, .f32⟩
  | 67 => ⟨S850000x1, .i32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x128, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x1, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x64, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x64, .f32⟩
  | 108 => ⟨S850000x1, .f32⟩
  | 109 => ⟨S850000x64, .f32⟩
  | 110 => ⟨S850000x64, .f32⟩
  | 111 => ⟨S_, .f32⟩
  | 112 => ⟨S50000x64, .f32⟩
  | 113 => ⟨S850000x1, .i32⟩
  | 114 => ⟨S50000x64, .f32⟩
  | 115 => ⟨S1x64, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S50000x1, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x1, .f32⟩

abbrev hbmTy0_1 (i : Nat) : BufTy := match i % 128 with
  | 0 => ⟨S850000, .i32⟩
  | 1 => ⟨S850000x1, .i32⟩
  | 2 => ⟨S850000x1, .f32⟩
  | 3 => ⟨S850000x1, .f32⟩
  | 4 => ⟨S850000x1, .f32⟩
  | 5 => ⟨S_, .f32⟩
  | 6 => ⟨S50000x1, .f32⟩
  | 7 => ⟨S850000x1, .i32⟩
  | 8 => ⟨S50000x1, .f32⟩
  | 9 => ⟨S1x1, .f32⟩
  | 10 => ⟨S50000x1, .f32⟩
  | 11 => ⟨S50000x1, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call3_cst : Ref sig .tc := ⟨.hbm, 118, rfl⟩
abbrev main_call3_v0 : Ref sig .tc := ⟨.hbm, 119, rfl⟩
abbrev main_v84 : Ref sig .tc := ⟨.hbm, 120, rfl⟩
abbrev main_v85 : Ref sig .tc := ⟨.hbm, 121, rfl⟩
abbrev main_c_16 : Ref sig .tc := ⟨.hbm, 122, rfl⟩
abbrev main_v86 : Ref sig .tc := ⟨.hbm, 123, rfl⟩
abbrev main_v87 : Ref sig .tc := ⟨.hbm, 124, rfl⟩
abbrev main_c_17 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_18 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x1_S1x256_S50000x256_1_0_0_1_n_n_wf : DotDims.WF S50000x1 S1x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x1_S50000x1_1_0_0_1_n_n_wf : DotDims.WF S50000x64 S64x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x1_S1x256_S50000x256_1_0_0_1_n_n : DotDims S50000x1 S1x256 S50000x256 where
  lhsContracting := [1]
  rhsContracting := [0]
  lhsNonContracting := [0]
  rhsNonContracting := [1]
  lhsBatch := []
  rhsBatch := []
  wf := dot_S50000x1_S1x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.Carry.lean ====
/-
  WHAT THE LATER STRETCHES FIND IN THE BUFFERS WRITTEN EARLIER. The device program's memory after each of its eleven
  stretches is a fold: a host stretch changes only the buffers its operations write, a region only its output array.
  The edge columns (written by the first stretch), the node-factor column (written by the third) and the argument
  arrays are written by no later stretch, so each later stretch finds them as they were left: walking the fold back,
  stretch by stretch, to where the buffer was last written.
-/
import proofs.«107906_j18640158064951_2_alg».proof.Proof.Gen.KernelIdeal.Frame
import Idealize.ShloMosaic.Lib.StableHlo.Run

set_option maxRecDepth 16384

noncomputable section

namespace Cert.KernelIdeal.Carry

open Cert.KernelIdeal Cert.KernelIdeal.Gen Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- No operation of the stretch writes the buffer: each operation's written reference is another one. -/
macro "keep_host" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem carry_v3_4 : W4 m ρ c (Proc.devRef .tc main_v3) = W3 m ρ c (Proc.devRef .tc main_v3) :=
  calc W4 m ρ c (Proc.devRef .tc main_v3)
    _ = W3 m ρ c (Proc.devRef .tc main_v3) := (W4_of_ne m ρ c main_v3 (by decide))

theorem carry_v3_6 : W6 m ρ c (Proc.devRef .tc main_v3) = W3 m ρ c (Proc.devRef .tc main_v3) :=
  calc W6 m ρ c (Proc.devRef .tc main_v3)
    _ = W5 m ρ c (Proc.devRef .tc main_v3) := (W6_of_ne m ρ c main_v3 (by decide))
    _ = W4 m ρ c (Proc.devRef .tc main_v3) := (by keep_host hostOps1)
    _ = W3 m ρ c (Proc.devRef .tc main_v3) := (W4_of_ne m ρ c main_v3 (by decide))

theorem carry_v3_8 : W8 m ρ c (Proc.devRef .tc main_v3) = W3 m ρ c (Proc.devRef .tc main_v3) :=
  calc W8 m ρ c (Proc.devRef .tc main_v3)
    _ = W7 m ρ c (Proc.devRef .tc main_v3) := (W8_of_ne m ρ c main_v3 (by decide))
    _ = W6 m ρ c (Proc.devRef .tc main_v3) := (by keep_host hostOps2)
    _ = W5 m ρ c (Proc.devRef .tc main_v3) := (W6_of_ne m ρ c main_v3 (by decide))
    _ = W4 m ρ c (Proc.devRef .tc main_v3) := (by keep_host hostOps1)
    _ = W3 m ρ c (Proc.devRef .tc main_v3) := (W4_of_ne m ρ c main_v3 (by decide))

theorem carry_v3_10 : W10 m ρ c (Proc.devRef .tc main_v3) = W3 m ρ c (Proc.devRef .tc main_v3) :=
  calc W10 m ρ c (Proc.devRef .tc main_v3)
    _ = W9 m ρ c (Proc.devRef .tc main_v3) := (W10_of_ne m ρ c main_v3 (by decide))
    _ = W8 m ρ c (Proc.devRef .tc main_v3) := (by keep_host hostOps3)
    _ = W7 m ρ c (Proc.devRef .tc main_v3) := (W8_of_ne m ρ c main_v3 (by decide))
    _ = W6 m ρ c (Proc.devRef .tc main_v3) := (by keep_host hostOps2)
    _ = W5 m ρ c (Proc.devRef .tc main_v3) := (W6_of_ne m ρ c main_v3 (by decide))
    _ = W4 m ρ c (Proc.devRef .tc main_v3) := (by keep_host hostOps1)
    _ = W3 m ρ c (Proc.devRef .tc main_v3) := (W4_of_ne m ρ c main_v3 (by decide))

theorem carry_v6_4 : W4 m ρ c (Proc.devRef .tc main_v6) = W3 m ρ c (Proc.devRef .tc main_v6) :=
  calc W4 m ρ c (Proc.devRef .tc main_v6)
    _ = W3 m ρ c (Proc.devRef .tc main_v6) := (W4_of_ne m ρ c main_v6 (by decide))

theorem carry_v6_6 : W6 m ρ c (Proc.devRef .tc main_v6) = W3 m ρ c (Proc.devRef .tc main_v6) :=
  calc W6 m ρ c (Proc.devRef .tc main_v6)
    _ = W5 m ρ c (Proc.devRef .tc main_v6) := (W6_of_ne m ρ c main_v6 (by decide))
    _ = W4 m ρ c (Proc.devRef .tc main_v6) := (by keep_host hostOps1)
    _ = W3 m ρ c (Proc.devRef .tc main_v6) := (W4_of_ne m ρ c main_v6 (by decide))

theorem carry_v6_8 : W8 m ρ c (Proc.devRef .tc main_v6) = W3 m ρ c (Proc.devRef .tc main_v6) :=
  calc W8 m ρ c (Proc.devRef .tc main_v6)
    _ = W7 m ρ c (Proc.devRef .tc main_v6) := (W8_of_ne m ρ c main_v6 (by decide))
    _ = W6 m ρ c (Proc.devRef .tc main_v6) := (by keep_host hostOps2)
    _ = W5 m ρ c (Proc.devRef .tc main_v6) := (W6_of_ne m ρ c main_v6 (by decide))
    _ = W4 m ρ c (Proc.devRef .tc main_v6) := (by keep_host hostOps1)
    _ = W3 m ρ c (Proc.devRef .tc main_v6) := (W4_of_ne m ρ c main_v6 (by decide))

theorem carry_v6_10 : W10 m ρ c (Proc.devRef .tc main_v6) = W3 m ρ c (Proc.devRef .tc main_v6) :=
  calc W10 m ρ c (Proc.devRef .tc main_v6)
    _ = W9 m ρ c (Proc.devRef .tc main_v6) := (W10_of_ne m ρ c main_v6 (by decide))
    _ = W8 m ρ c (Proc.devRef .tc main_v6) := (by keep_host hostOps3)
    _ = W7 m ρ c (Proc.devRef .tc main_v6) := (W8_of_ne m ρ c main_v6 (by decide))
    _ = W6 m ρ c (Proc.devRef .tc main_v6) := (by keep_host hostOps2)
    _ = W5 m ρ c (Proc.devRef .tc main_v6) := (W6_of_ne m ρ c main_v6 (by decide))
    _ = W4 m ρ c (Proc.devRef .tc main_v6) := (by keep_host hostOps1)
    _ = W3 m ρ c (Proc.devRef .tc main_v6) := (W4_of_ne m ρ c main_v6 (by decide))

theorem carry_v16_5 : W5 m ρ c (Proc.devRef .tc main_v16) = W3 m ρ c (Proc.devRef .tc main_v16) :=
  calc W5 m ρ c (Proc.devRef .tc main_v16)
    _ = W4 m ρ c (Proc.devRef .tc main_v16) := (by keep_host hostOps1)
    _ = W3 m ρ c (Proc.devRef .tc main_v16) := ((W4_arr m ρ c 1).trans (((dat0 (V3 m ρ) c).arrAt_in 1 rfl _).trans (A_eq0 (V3 m ρ) c 1)))

theorem carry_v16_7 : W7 m ρ c (Proc.devRef .tc main_v16) = W3 m ρ c (Proc.devRef .tc main_v16) :=
  calc W7 m ρ c (Proc.devRef .tc main_v16)
    _ = W6 m ρ c (Proc.devRef .tc main_v16) := (by keep_host hostOps2)
    _ = W5 m ρ c (Proc.devRef .tc main_v16) := ((W6_arr m ρ c 1).trans (((dat1 (V5 m ρ) c).arrAt_in 1 rfl _).trans (A_eq1 (V5 m ρ) c 1)))
    _ = W4 m ρ c (Proc.devRef .tc main_v16) := (by keep_host hostOps1)
    _ = W3 m ρ c (Proc.devRef .tc main_v16) := ((W4_arr m ρ c 1).trans (((dat0 (V3 m ρ) c).arrAt_in 1 rfl _).trans (A_eq0 (V3 m ρ) c 1)))

theorem carry_v16_9 : W9 m ρ c (Proc.devRef .tc main_v16) = W3 m ρ c (Proc.devRef .tc main_v16) :=
  calc W9 m ρ c (Proc.devRef .tc main_v16)
    _ = W8 m ρ c (Proc.devRef .tc main_v16) := (by keep_host hostOps3)
    _ = W7 m ρ c (Proc.devRef .tc main_v16) := ((W8_arr m ρ c 1).trans (((dat2 (V7 m ρ) c).arrAt_in 1 rfl _).trans (A_eq2 (V7 m ρ) c 1)))
    _ = W6 m ρ c (Proc.devRef .tc main_v16) := (by keep_host hostOps2)
    _ = W5 m ρ c (Proc.devRef .tc main_v16) := ((W6_arr m ρ c 1).trans (((dat1 (V5 m ρ) c).arrAt_in 1 rfl _).trans (A_eq1 (V5 m ρ) c 1)))
    _ = W4 m ρ c (Proc.devRef .tc main_v16) := (by keep_host hostOps1)
    _ = W3 m ρ c (Proc.devRef .tc main_v16) := ((W4_arr m ρ c 1).trans (((dat0 (V3 m ρ) c).arrAt_in 1 rfl _).trans (A_eq0 (V3 m ρ) c 1)))

theorem carry_v16_10 : W10 m ρ c (Proc.devRef .tc main_v16) = W3 m ρ c (Proc.devRef .tc main_v16) :=
  calc W10 m ρ c (Proc.devRef .tc main_v16)
    _ = W9 m ρ c (Proc.devRef .tc main_v16) := ((W10_arr m ρ c 1).trans (((dat3 (V9 m ρ) c).arrAt_in 1 rfl _).trans (A_eq3 (V9 m ρ) c 1)))
    _ = W8 m ρ c (Proc.devRef .tc main_v16) := (by keep_host hostOps3)
    _ = W7 m ρ c (Proc.devRef .tc main_v16) := ((W8_arr m ρ c 1).trans (((dat2 (V7 m ρ) c).arrAt_in 1 rfl _).trans (A_eq2 (V7 m ρ) c 1)))
    _ = W6 m ρ c (Proc.devRef .tc main_v16) := (by keep_host hostOps2)
    _ = W5 m ρ c (Proc.devRef .tc main_v16) := ((W6_arr m ρ c 1).trans (((dat1 (V5 m ρ) c).arrAt_in 1 rfl _).trans (A_eq1 (V5 m ρ) c 1)))
    _ = W4 m ρ c (Proc.devRef .tc main_v16) := (by keep_host hostOps1)
    _ = W3 m ρ c (Proc.devRef .tc main_v16) := ((W4_arr m ρ c 1).trans (((dat0 (V3 m ρ) c).arrAt_in 1 rfl _).trans (A_eq0 (V3 m ρ) c 1)))

theorem carry_arg0_3 : W3 m ρ c (Proc.devRef .tc main_arg0) = W0 m ρ c (Proc.devRef .tc main_arg0) :=
  calc W3 m ρ c (Proc.devRef .tc main_arg0)
    _ = W2 m ρ c (Proc.devRef .tc main_arg0) := (by keep_host hostOps0_2)
    _ = W1 m ρ c (Proc.devRef .tc main_arg0) := (by keep_host hostOps0_1)
    _ = W0 m ρ c (Proc.devRef .tc main_arg0) := (by keep_host hostOps0)

theorem carry_arg2_3 : W3 m ρ c (Proc.devRef .tc main_arg2) = W0 m ρ c (Proc.devRef .tc main_arg2) :=
  calc W3 m ρ c (Proc.devRef .tc main_arg2)
    _ = W2 m ρ c (Proc.devRef .tc main_arg2) := (by keep_host hostOps0_2)
    _ = W1 m ρ c (Proc.devRef .tc main_arg2) := (by keep_host hostOps0_1)
    _ = W0 m ρ c (Proc.devRef .tc main_arg2) := (by keep_host hostOps0)

theorem carry_arg1_3 : W3 m ρ c (Proc.devRef .tc main_arg1) = W0 m ρ c (Proc.devRef .tc main_arg1) :=
  calc W3 m ρ c (Proc.devRef .tc main_arg1)
    _ = W2 m ρ c (Proc.devRef .tc main_arg1) := (by keep_host hostOps0_2)
    _ = W1 m ρ c (Proc.devRef .tc main_arg1) := (by keep_host hostOps0_1)
    _ = W0 m ρ c (Proc.devRef .tc main_arg1) := (by keep_host hostOps0)

theorem carry_arg3_4 : W4 m ρ c (Proc.devRef .tc main_arg3) = W0 m ρ c (Proc.devRef .tc main_arg3) :=
  calc W4 m ρ c (Proc.devRef .tc main_arg3)
    _ = W3 m ρ c (Proc.devRef .tc main_arg3) := (W4_of_ne m ρ c main_arg3 (by decide))
    _ = W2 m ρ c (Proc.devRef .tc main_arg3) := (by keep_host hostOps0_2)
    _ = W1 m ρ c (Proc.devRef .tc main_arg3) := (by keep_host hostOps0_1)
    _ = W0 m ρ c (Proc.devRef .tc main_arg3) := (by keep_host hostOps0)

theorem carry_arg4_5 : W5 m ρ c (Proc.devRef .tc main_arg4) = W0 m ρ c (Proc.devRef .tc main_arg4) :=
  calc W5 m ρ c (Proc.devRef .tc main_arg4)
    _ = W4 m ρ c (Proc.devRef .tc main_arg4) := (by keep_host hostOps1)
    _ = W3 m ρ c (Proc.devRef .tc main_arg4) := (W4_of_ne m ρ c main_arg4 (by decide))
    _ = W2 m ρ c (Proc.devRef .tc main_arg4) := (by keep_host hostOps0_2)
    _ = W1 m ρ c (Proc.devRef .tc main_arg4) := (by keep_host hostOps0_1)
    _ = W0 m ρ c (Proc.devRef .tc main_arg4) := (by keep_host hostOps0)

theorem carry_arg5_6 : W6 m ρ c (Proc.devRef .tc main_arg5) = W0 m ρ c (Proc.devRef .tc main_arg5) :=
  calc W6 m ρ c (Proc.devRef .tc main_arg5)
    _ = W5 m ρ c (Proc.devRef .tc main_arg5) := (W6_of_ne m ρ c main_arg5 (by decide))
    _ = W4 m ρ c (Proc.devRef .tc main_arg5) := (by keep_host hostOps1)
    _ = W3 m ρ c (Proc.devRef .tc main_arg5) := (W4_of_ne m ρ c main_arg5 (by decide))
    _ = W2 m ρ c (Proc.devRef .tc main_arg5) := (by keep_host hostOps0_2)
    _ = W1 m ρ c (Proc.devRef .tc main_arg5) := (by keep_host hostOps0_1)
    _ = W0 m ρ c (Proc.devRef .tc main_arg5) := (by keep_host hostOps0)

theorem carry_arg6_7 : W7 m ρ c (Proc.devRef .tc main_arg6) = W0 m ρ c (Proc.devRef .tc main_arg6) :=
  calc W7 m ρ c (Proc.devRef .tc main_arg6)
    _ = W6 m ρ c (Proc.devRef .tc main_arg6) := (by keep_host hostOps2)
    _ = W5 m ρ c (Proc.devRef .tc main_arg6) := (W6_of_ne m ρ c main_arg6 (by decide))
    _ = W4 m ρ c (Proc.devRef .tc main_arg6) := (by keep_host hostOps1)
    _ = W3 m ρ c (Proc.devRef .tc main_arg6) := (W4_of_ne m ρ c main_arg6 (by decide))
    _ = W2 m ρ c (Proc.devRef .tc main_arg6) := (by keep_host hostOps0_2)
    _ = W1 m ρ c (Proc.devRef .tc main_arg6) := (by keep_host hostOps0_1)
    _ = W0 m ρ c (Proc.devRef .tc main_arg6) := (by keep_host hostOps0)

theorem carry_arg7_8 : W8 m ρ c (Proc.devRef .tc main_arg7) = W0 m ρ c (Proc.devRef .tc main_arg7) :=
  calc W8 m ρ c (Proc.devRef .tc main_arg7)
    _ = W7 m ρ c (Proc.devRef .tc main_arg7) := (W8_of_ne m ρ c main_arg7 (by decide))
    _ = W6 m ρ c (Proc.devRef .tc main_arg7) := (by keep_host hostOps2)
    _ = W5 m ρ c (Proc.devRef .tc main_arg7) := (W6_of_ne m ρ c main_arg7 (by decide))
    _ = W4 m ρ c (Proc.devRef .tc main_arg7) := (by keep_host hostOps1)
    _ = W3 m ρ c (Proc.devRef .tc main_arg7) := (W4_of_ne m ρ c main_arg7 (by decide))
    _ = W2 m ρ c (Proc.devRef .tc main_arg7) := (by keep_host hostOps0_2)
    _ = W1 m ρ c (Proc.devRef .tc main_arg7) := (by keep_host hostOps0_1)
    _ = W0 m ρ c (Proc.devRef .tc main_arg7) := (by keep_host hostOps0)

theorem carry_arg8_9 : W9 m ρ c (Proc.devRef .tc main_arg8) = W0 m ρ c (Proc.devRef .tc main_arg8) :=
  calc W9 m ρ c (Proc.devRef .tc main_arg8)
    _ = W8 m ρ c (Proc.devRef .tc main_arg8) := (by keep_host hostOps3)
    _ = W7 m ρ c (Proc.devRef .tc main_arg8) := (W8_of_ne m ρ c main_arg8 (by decide))
    _ = W6 m ρ c (Proc.devRef .tc main_arg8) := (by keep_host hostOps2)
    _ = W5 m ρ c (Proc.devRef .tc main_arg8) := (W6_of_ne m ρ c main_arg8 (by decide))
    _ = W4 m ρ c (Proc.devRef .tc main_arg8) := (by keep_host hostOps1)
    _ = W3 m ρ c (Proc.devRef .tc main_arg8) := (W4_of_ne m ρ c main_arg8 (by decide))
    _ = W2 m ρ c (Proc.devRef .tc main_arg8) := (by keep_host hostOps0_2)
    _ = W1 m ρ c (Proc.devRef .tc main_arg8) := (by keep_host hostOps0_1)
    _ = W0 m ρ c (Proc.devRef .tc main_arg8) := (by keep_host hostOps0)

theorem carry_arg9_10 : W10 m ρ c (Proc.devRef .tc main_arg9) = W0 m ρ c (Proc.devRef .tc main_arg9) :=
  calc W10 m ρ c (Proc.devRef .tc main_arg9)
    _ = W9 m ρ c (Proc.devRef .tc main_arg9) := (W10_of_ne m ρ c main_arg9 (by decide))
    _ = W8 m ρ c (Proc.devRef .tc main_arg9) := (by keep_host hostOps3)
    _ = W7 m ρ c (Proc.devRef .tc main_arg9) := (W8_of_ne m ρ c main_arg9 (by decide))
    _ = W6 m ρ c (Proc.devRef .tc main_arg9) := (by keep_host hostOps2)
    _ = W5 m ρ c (Proc.devRef .tc main_arg9) := (W6_of_ne m ρ c main_arg9 (by decide))
    _ = W4 m ρ c (Proc.devRef .tc main_arg9) := (by keep_host hostOps1)
    _ = W3 m ρ c (Proc.devRef .tc main_arg9) := (W4_of_ne m ρ c main_arg9 (by decide))
    _ = W2 m ρ c (Proc.devRef .tc main_arg9) := (by keep_host hostOps0_2)
    _ = W1 m ρ c (Proc.devRef .tc main_arg9) := (by keep_host hostOps0_1)
    _ = W0 m ρ c (Proc.devRef .tc main_arg9) := (by keep_host hostOps0)

end Cert.KernelIdeal.Carry

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibReal.lean ====
/-
  Extended reals that are real numbers. An entry of a finite input is one (its absolute value lies below +infinity);
  sums, differences, products, finite sums and quotients by a nonzero real of such entries are again real, and so is the
  value of any f32 pattern whose exponent field is not all ones. What an algebraic law that needs finiteness is applied
  to is first shown to be of this kind.
-/
import Idealize.ShloMosaic.PureOps.Ideal
import Mathlib.Algebra.BigOperators.Group.Finset.Basic

namespace Idealize.ShloMosaic.RealEntries

open Idealize.ShloMosaic

/-- The extended real `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A quotient by a nonzero real. -/
theorem IsReal.div_coe {a : EReal} (ha : IsReal a) {y : ℝ} (hy : y ≠ 0) : IsReal (Ideal.div a (y : EReal)) := by
  rw [Ideal.div_coe hy]; exact ha.mul (IsReal.coe _)

/-- An f32 pattern whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split_ifs <;> exact ⟨_, rfl⟩

/-- An extended real whose absolute value lies below +infinity is a real number. -/
theorem isReal_of_abs_lt_top {a : EReal} (h : max a (-a) < ⊤) : IsReal a := by
  induction a using EReal.rec with
  | bot => simp at h
  | coe r => exact ⟨r, rfl⟩
  | top => simp at h

end Idealize.ShloMosaic.RealEntries
-- ==== Proof.LibGcnLaw.lean ====
/-
  THE NORMALISED GRAPH CONVOLUTION, TWO WAYS.

  A graph on `N` nodes with `E` edges: edge `e` reads the row of its source node `g e` and lands on node `n` when
  `lands e n` holds (an edge may land nowhere). With a per-node factor `d` (the inverse square root of the degree)
  one layer of the convolution is, for an activation `A`, weights `W` and bias `b`,

      conv A W b nrm (n, q) = (∑ over the edges e landing on n of (A W)(g e, q) · nrm e) + b q,

  where the edge weight is `nrm e = d (g e) · d n` for an edge landing on `n`. Because `d n` does not depend on the
  edge it can be taken out of the sum over the edges landing on `n`:

      conv A W b nrm (n, q) = d n · (∑ over the edges e landing on n of ((A W)(g e, q) · d (g e))) + b q.

  The second form scales each node's row once by `d` before the rows are collected and once after. Taking a factor out
  of a sum is a law of the real numbers, not of the extended reals (a product with an infinite sum of mixed signs is
  not the sum of the products), so the statement asks every entry to be a real number, and the entries of every layer
  are shown to stay real. Four layers are chained: three followed by `max · 0`, the last one not.
-/
import proofs.«107906_j18640158064951_2_alg».proof.Proof.LibReal

noncomputable section

open scoped BigOperators

namespace Cert.Gcn

open Idealize.ShloMosaic.RealEntries

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor goes inside a finite sum of real entries. -/
theorem real_mul_sum {ι : Type*} [Fintype ι] (c : EReal) (hc : IsReal c) (f : ι → EReal) (hf : ∀ i, IsReal (f i)) :
    c * ∑ i, f i = ∑ i, c * f i := by
  obtain ⟨cr, rfl⟩ := hc
  choose fr hfr using hf
  simp only [hfr, ← coe_sum, ← EReal.coe_mul, Finset.mul_sum]

theorem isReal_max {a b : EReal} (ha : IsReal a) (hb : IsReal b) : IsReal (max a b) := by
  rcases le_total a b with h | h
  · rw [max_eq_right h]; exact hb
  · rw [max_eq_left h]; exact ha

variable {N E : Nat}

/-- The matrix product `(A W)(n, q) = ∑ k, A (n, k) · W (k, q)`. -/
def mat {K C : Nat} (A : Fin N → Fin K → EReal) (W : Fin K → Fin C → EReal) (n : Fin N) (q : Fin C) : EReal :=
  ∑ k, A n k * W k q

variable (lands : Fin E → Fin N → Prop) [∀ e n, Decidable (lands e n)] (g : Fin E → Fin N)

/-- The per-edge rows `u` collected on the nodes they land on, into zeros. -/
def agg {C : Nat} (u : Fin E → Fin C → EReal) (n : Fin N) (q : Fin C) : EReal :=
  0 + ∑ e, if lands e n then u e q else 0

/-- A layer's rows scaled by the node factor after the product: what the edges then read. -/
def scaled {K C : Nat} (A : Fin N → Fin K → EReal) (W : Fin K → Fin C → EReal) (d : Fin N → EReal) (n : Fin N) (q : Fin C) : EReal :=
  mat A W n q * d n

/-- The next layer's activation from the collected rows `s`: scale by the node factor, add the bias, clamp at zero. -/
def act {K : Nat} (s : Fin N → Fin K → EReal) (d : Fin N → EReal) (b : Fin K → EReal) (n : Fin N) (k : Fin K) : EReal :=
  max (d n * s n k + b k) 0

/-- One layer of the convolution with per-edge weights `nrm`. -/
def conv {K C : Nat} (A : Fin N → Fin K → EReal) (W : Fin K → Fin C → EReal) (b : Fin C → EReal) (nrm : Fin E → EReal)
    (n : Fin N) (q : Fin C) : EReal :=
  agg lands (fun e q => mat A W (g e) q * nrm e) n q + b q

theorem isReal_mat {K C : Nat} {A : Fin N → Fin K → EReal} {W : Fin K → Fin C → EReal} (hA : ∀ n k, IsReal (A n k))
    (hW : ∀ k q, IsReal (W k q)) (n : Fin N) (q : Fin C) : IsReal (mat A W n q) :=
  IsReal.sum _ _ fun k _ => (hA n k).mul (hW k q)

theorem isReal_agg {C : Nat} {u : Fin E → Fin C → EReal} (hu : ∀ e q, IsReal (u e q)) (n : Fin N) (q : Fin C) :
    IsReal (agg lands u n q) :=
  IsReal.zero.add (IsReal.sum _ _ fun e _ => by split_ifs; exacts [hu e q, IsReal.zero])

theorem isReal_act {K : Nat} {s : Fin N → Fin K → EReal} {d : Fin N → EReal} {b : Fin K → EReal}
    (hs : ∀ n k, IsReal (s n k)) (hd : ∀ n, IsReal (d n)) (hb : ∀ k, IsReal (b k)) (n : Fin N) (k : Fin K) :
    IsReal (act s d b n k) :=
  isReal_max (((hd n).mul (hs n k)).add (hb k)) IsReal.zero

/-- THE LAW, one layer: the node factor of the landing node leaves the sum over the edges landing there. -/
theorem conv_eq {K C : Nat} {A : Fin N → Fin K → EReal} {W : Fin K → Fin C → EReal} (b : Fin C → EReal) {d : Fin N → EReal}
    {nrm : Fin E → EReal} (hA : ∀ n k, IsReal (A n k)) (hW : ∀ k q, IsReal (W k q)) (hd : ∀ n, IsReal (d n))
    (hnrm : ∀ e n, lands e n → nrm e = d (g e) * d n) (n : Fin N) (q : Fin C) :
    conv lands g A W b nrm n q = d n * agg lands (fun e q => scaled A W d (g e) q) n q + b q := by
  unfold conv agg scaled
  congr 1
  rw [zero_add, zero_add, real_mul_sum _ (hd n) _ fun e => by
    split_ifs
    exacts [(isReal_mat hA hW _ _).mul (hd _), IsReal.zero]]
  refine Finset.sum_congr rfl fun e _ => ?_
  split_ifs with h
  · show mat A W (g e) q * nrm e = d n * (mat A W (g e) q * d (g e))
    rw [hnrm e n h, mul_comm (d n), mul_assoc]
  · rw [mul_zero]

/-- One layer followed by the clamp at zero is the next activation of the scaled form. -/
theorem relu_conv_eq {K C : Nat} {A : Fin N → Fin K → EReal} {W : Fin K → Fin C → EReal} (b : Fin C → EReal) {d : Fin N → EReal}
    {nrm : Fin E → EReal} (hA : ∀ n k, IsReal (A n k)) (hW : ∀ k q, IsReal (W k q)) (hd : ∀ n, IsReal (d n))
    (hnrm : ∀ e n, lands e n → nrm e = d (g e) * d n) :
    (fun n q => max (conv lands g A W b nrm n q) 0) = act (agg lands fun e q => scaled A W d (g e) q) d b := by
  funext n q
  rw [conv_eq lands g b hA hW hd hnrm]
  rfl

theorem isReal_scaled_agg {K C : Nat} {A : Fin N → Fin K → EReal} {W : Fin K → Fin C → EReal} {d : Fin N → EReal}
    (hA : ∀ n k, IsReal (A n k)) (hW : ∀ k q, IsReal (W k q)) (hd : ∀ n, IsReal (d n)) (n : Fin N) (q : Fin C) :
    IsReal (agg lands (fun e q => scaled A W d (g e) q) n q) :=
  isReal_agg lands (fun e q => (isReal_mat hA hW _ _).mul (hd _)) n q

/-- The rows of a layer, scaled by the node factor, collected on the nodes the edges land on. -/
def collect {K C : Nat} (A : Fin N → Fin K → EReal) (W : Fin K → Fin C → EReal) (d : Fin N → EReal) (n : Fin N) (q : Fin C) : EReal :=
  agg lands (fun e q => scaled A W d (g e) q) n q

theorem isReal_collect {K C : Nat} {A : Fin N → Fin K → EReal} {W : Fin K → Fin C → EReal} {d : Fin N → EReal}
    (hA : ∀ n k, IsReal (A n k)) (hW : ∀ k q, IsReal (W k q)) (hd : ∀ n, IsReal (d n)) (n : Fin N) (q : Fin C) :
    IsReal (collect lands g A W d n q) := isReal_scaled_agg lands g hA hW hd n q

/-- FOUR LAYERS: the plain form (three layers each followed by the clamp at zero, then a fourth) is the scaled form
    (rows scaled by the node factor before they are collected, the collected rows scaled again, bias, clamp), when
    every input entry and the node factor are real numbers and an edge landing on `n` weighs `d (g e) · d n`. -/
theorem four_layers {K C1 C2 C3 C4 : Nat} {x : Fin N → Fin K → EReal}
    {W1 : Fin K → Fin C1 → EReal} {b1 : Fin C1 → EReal} {W2 : Fin C1 → Fin C2 → EReal} {b2 : Fin C2 → EReal}
    {W3 : Fin C2 → Fin C3 → EReal} {b3 : Fin C3 → EReal} {W4 : Fin C3 → Fin C4 → EReal} (b4 : Fin C4 → EReal)
    {d : Fin N → EReal} {nrm : Fin E → EReal}
    (hx : ∀ n k, IsReal (x n k)) (hW1 : ∀ k q, IsReal (W1 k q)) (hb1 : ∀ k, IsReal (b1 k))
    (hW2 : ∀ k q, IsReal (W2 k q)) (hb2 : ∀ k, IsReal (b2 k)) (hW3 : ∀ k q, IsReal (W3 k q)) (hb3 : ∀ k, IsReal (b3 k))
    (hW4 : ∀ k q, IsReal (W4 k q)) (hd : ∀ n, IsReal (d n))
    (hnrm : ∀ e n, lands e n → nrm e = d (g e) * d n) (n : Fin N) (q : Fin C4) :
    conv lands g (fun n k => max (conv lands g (fun n k => max (conv lands g (fun n k => max (conv lands g x W1 b1 nrm n k) 0)
        W2 b2 nrm n k) 0) W3 b3 nrm n k) 0) W4 b4 nrm n q
      = d n * collect lands g (act (collect lands g (act (collect lands g (act (collect lands g x W1 d) d b1) W2 d) d b2) W3 d) d b3)
          W4 d n q + b4 q := by
  have h1 := relu_conv_eq lands g b1 hx hW1 hd hnrm
  have hA2 : ∀ n k, IsReal (act (collect lands g x W1 d) d b1 n k) :=
    isReal_act (isReal_collect lands g hx hW1 hd) hd hb1
  have h2 := relu_conv_eq lands g b2 hA2 hW2 hd hnrm
  have hA3 : ∀ n k, IsReal (act (collect lands g (act (collect lands g x W1 d) d b1) W2 d) d b2 n k) :=
    isReal_act (isReal_collect lands g hA2 hW2 hd) hd hb2
  have h3 := relu_conv_eq lands g b3 hA3 hW3 hd hnrm
  have hA4 : ∀ n k, IsReal (act (collect lands g (act (collect lands g (act (collect lands g x W1 d) d b1) W2 d) d b2) W3 d) d b3 n k) :=
    isReal_act (isReal_collect lands g hA3 hW3 hd) hd hb3
  unfold collect at h1 h2 h3 hA4 ⊢
  rw [h1, h2, h3]
  exact conv_eq lands g b4 hA4 hW4 hd hnrm n q

end Cert.Gcn

end
-- ==== Proof.LibLayerForms.lean ====
/-
  THE LAYERS' WHOLE-ARRAY FORMS. What one layer's device program leaves in its output array, as one function of the
  arrays it reads, index by index: the first layer `(x W)(n, q) · d n`; a later layer
  `(max (d n · s (n, ·) + b) 0 · W)(n, q) · d n` from the collected rows `s` of the layer before. The node factor
  is stored as a one-column array and the bias as a one-row array.
-/
import proofs.«107906_j18640158064951_2_alg».proof.Proof.LibGcnLaw
import Idealize.ShloMosaic.Lib.ValueIdx

noncomputable section

open scoped BigOperators

namespace Cert.Gcn

open Idealize.ShloMosaic Idealize.ShloMosaic.ValueIdx

/-- An array `[N, C]` as a function of its row and column. -/
abbrev rc {α : Type} {N C : Nat} (X : (⟨2, ![N, C]⟩ : Shape).Idx → α) (n : Fin N) (q : Fin C) : α := X (ix2 n q)
/-- A one-column array `[N, 1]` as a function of its row. -/
abbrev col {α : Type} {N : Nat} (X : (⟨2, ![N, 1]⟩ : Shape).Idx → α) (n : Fin N) : α := X (ix2 n (0 : Fin 1))
/-- A one-row array `[1, K]` as a function of its column. -/
abbrev row {α : Type} {K : Nat} (X : (⟨2, ![1, K]⟩ : Shape).Idx → α) (k : Fin K) : α := X (ix2 (0 : Fin 1) k)

/-- The first layer's output array. -/
def firstForm {N K C : Nat} (x : (⟨2, ![N, K]⟩ : Shape).Idx → EReal) (dc : (⟨2, ![N, 1]⟩ : Shape).Idx → EReal)
    (W : (⟨2, ![K, C]⟩ : Shape).Idx → EReal) : (⟨2, ![N, C]⟩ : Shape).Idx → EReal :=
  fun i => scaled (rc x) (rc W) (col dc) (i 0) (i 1)

/-- A later layer's output array, from the collected rows `s`. -/
def midForm {N K C : Nat} (s : (⟨2, ![N, K]⟩ : Shape).Idx → EReal) (dc : (⟨2, ![N, 1]⟩ : Shape).Idx → EReal)
    (b : (⟨2, ![1, K]⟩ : Shape).Idx → EReal) (W : (⟨2, ![K, C]⟩ : Shape).Idx → EReal) :
    (⟨2, ![N, C]⟩ : Shape).Idx → EReal :=
  fun i => scaled (act (rc s) (col dc) (row b)) (rc W) (col dc) (i 0) (i 1)

theorem firstForm_apply {N K C : Nat} (x : (⟨2, ![N, K]⟩ : Shape).Idx → EReal) (dc : (⟨2, ![N, 1]⟩ : Shape).Idx → EReal)
    (W : (⟨2, ![K, C]⟩ : Shape).Idx → EReal) (n : Fin N) (q : Fin C) :
    firstForm x dc W (ix2 n q) = (∑ k : Fin K, x (ix2 n k) * W (ix2 k q)) * dc (ix2 n (0 : Fin 1)) := rfl

theorem midForm_apply {N K C : Nat} (s : (⟨2, ![N, K]⟩ : Shape).Idx → EReal) (dc : (⟨2, ![N, 1]⟩ : Shape).Idx → EReal)
    (b : (⟨2, ![1, K]⟩ : Shape).Idx → EReal) (W : (⟨2, ![K, C]⟩ : Shape).Idx → EReal) (n : Fin N) (q : Fin C) :
    midForm s dc b W (ix2 n q)
      = (∑ k : Fin K, max (dc (ix2 n (0 : Fin 1)) * s (ix2 n k) + b (ix2 (0 : Fin 1) k)) 0 * W (ix2 k q)) * dc (ix2 n (0 : Fin 1)) := rfl

end Cert.Gcn

end
-- ==== Proof.Layer0.lean ====
/-
  THE FIRST LAYER ON THE DEVICE: what its output array holds after the run, as one function of the arrays the region
  finds. The grid has 25 points; point `t` reads rows `2000 t … 2000 t + 1999` of the input column `x` and of the
  node-factor column `d` and the whole weight row `W`, and writes the same rows of the output: entry `(n, q)` is
  `(∑ k, x (n, k) · W (k, q)) · d n` (one term: the input has one feature). The 25 blocks tile the 50000 rows.
-/
import proofs.«107906_j18640158064951_2_alg».proof.Proof.Gen.KernelIdeal.Frame
import proofs.«107906_j18640158064951_2_alg».proof.Proof.LibMatOps
import proofs.«107906_j18640158064951_2_alg».proof.Proof.LibLayerForms
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD)

/-- The arrays the region reads, as it finds them: the input column, the factor column, the weight row. -/
abbrev xArr : S50000x1.Idx → EReal := V c main_arg0
abbrev dArr : S50000x1.Idx → EReal := V c main_v16
abbrev wArr : S1x256.Idx → EReal := V c main_arg2

theorem hz : (![0, 0] : Fin 2 → Nat) = fun _ => 0 := funext fun a => by fin_cases a <;> rfl

/-- The body's stored value at row `p`, column `q` of the block, from the blocks it loaded. -/
theorem payload_apply (v0 : Vec Ideal S2000x1 .f32) (v2 : Vec Ideal S1x256 .f32) (v5 : Vec Ideal S2000x1 .f32)
    (p : Fin 2000) (q : Fin 256) :
    k0_pay1 (F := Ideal) v0 v2 v5 (ix2 p q)
      = (∑ k : Fin 1, v0 (ix2 p k) * v2 (ix2 k q)) * v5 (ix2 p (0 : Fin 1)) := by
  unfold k0_pay1
  rw [truncf_apply, mulf_apply]
  congr 1
  · exact Cert.MatOps.matmul_plain_apply (M := 2000) (K := 1) (C := 256) dot_S2000x1_S1x256_S2000x256_1_0_0_1_n_n.wf none _ _ p q
  · rw [Cert.MatOps.broadcastTo_a1_ab_apply, shapeCast_self]

/-- How the four windows' block indices move with the point: the row blocks with the point, the weight row fixed. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 1600000 in
/-- WHAT POINT `t` WRITES BACK is block `t` of the layer's form of the arrays as the region finds them. -/
theorem flushed_eq (t : Fin cfg0.N) :
    (dat0 V c).flushed 3 t = ((cfg0.win 3).blk t).view.read (Elt Ideal)
      (Cert.Gcn.firstForm (xArr V c) (dArr V c) (wArr V c)) := by
  show (cfg0.win 3).cut (grid0.coords t) ((dat0 V c).after 3 t) = _
  rw [after0_3]
  unfold out0_3
  rw [View.canon_unit_zero hz]
  simp only [View.ld_unit_zero (S := S2000x1) hz, View.ld_unit_zero (S := S1x256) hz]
  obtain ⟨e0, e1, e2, e3, e4, e5, e6, e7⟩ := idx_facts t
  funext j
  obtain ⟨p, q, rfl⟩ : ∃ (p : Fin 2000) (q : Fin 256), j = ix2 p q := ⟨j 0, j 1, eq_ix2 j⟩
  refine (payload_apply (iblk0 V c 0 t) (iblk0 V c 2 t) (iblk0 V c 1 t) p q).trans ?_
  have hp : p.val < 2000 := p.isLt
  have hq : q.val < 256 := q.isLt
  have ht : t.val < 25 := lt_of_lt_of_eq t.isLt N_0
  have ho : ((cfg0.win 3).blk t).view.emb (ix2 p q) = ix2 (⟨t.val * 2000 + p.val, by omega⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 256 + 1 * q.val = q.val; omega
  have h0 : ∀ k : Fin 1, ((cfg0.win 0).blk t).view.emb (ix2 p k) = ix2 (⟨t.val * 2000 + p.val, by omega⟩ : Fin 50000) k := by
    intro k; funext a; apply Fin.ext
    match a with
    | ⟨0, _⟩ => show win0_0.index t (0 : Fin 2) * 2000 + 1 * p.val = t.val * 2000 + p.val; omega
    | ⟨1, _⟩ => show win0_0.index t (1 : Fin 2) * 1 + 1 * k.val = k.val; omega
  have h1 : ((cfg0.win 1).blk t).view.emb (ix2 p (0 : Fin 1)) = ix2 (⟨t.val * 2000 + p.val, by omega⟩ : Fin 50000) (0 : Fin 1) := by
    funext a; apply Fin.ext
    match a with
    | ⟨0, _⟩ => show win0_1.index t (0 : Fin 2) * 2000 + 1 * p.val = t.val * 2000 + p.val; omega
    | ⟨1, _⟩ => show win0_1.index t (1 : Fin 2) * 1 + 1 * 0 = 0; omega
  have h2 : ∀ k : Fin 1, ((cfg0.win 2).blk t).view.emb (ix2 k q) = ix2 k q := by
    intro k; funext a; apply Fin.ext
    match a with
    | ⟨0, _⟩ => show win0_2.index t (0 : Fin 2) * 1 + 1 * k.val = k.val; omega
    | ⟨1, _⟩ => show win0_2.index t (1 : Fin 2) * 256 + 1 * q.val = q.val; omega
  show (∑ k : Fin 1, xArr V c (((cfg0.win 0).blk t).view.emb (ix2 p k))
        * wArr V c (((cfg0.win 2).blk t).view.emb (ix2 k q)))
      * dArr V c (((cfg0.win 1).blk t).view.emb (ix2 p (0 : Fin 1)))
    = Cert.Gcn.firstForm (xArr V c) (dArr V c) (wArr V c) (((cfg0.win 3).blk t).view.emb (ix2 p q))
  rw [ho, Cert.Gcn.firstForm_apply, h1]
  simp only [h0, h2]

/-- An index of the output array is in point `t`'s block iff each coordinate is in the block's range. -/
theorem mem_blk (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v17).slice (win0_3.rect t)).set ↔ _
  rw [View.set_slice_whole, Rect.mem_set_unit]
  exact Iff.rfl

/-- Every row is in the block of the point `row / 2000`. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨e0, e1, e2, e3, e4, e5, e6, e7⟩ := idx_facts t
  have htv : t.val = (i 0).val / 2000 := rfl
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 256 ≤ (i 1).val ∧ (i 1).val < win0_3.index t (1 : Fin 2) * 256 + 256
    omega

/-- THE OUTPUT ARRAY after the region: the layer's form of the arrays the region found. -/
theorem final : (dat0 V c).arrAt 3 cfg0.N = Cert.Gcn.firstForm (xArr V c) (dArr V c) (wArr V c) :=
  (dat0 V c).arrAt_eq_of_cover 3 _ (fun t _ => flushed_eq V c t) cover

end Cert.KernelIdeal.Layer0

end
-- ==== Proof.LibRowScatter.lean ====
/-
  ROW GATHER AND ACCUMULATING ROW SCATTER, READ AT AN INDEX.

  Two StableHLO host operations on a matrix `[N, C]` whose rows are addressed by an integer column `[E, 1]`, with
  the "rows" dimension numbers that `h[src]` (take rows) and a segment sum over destination rows lower to:

  * the row gather (offset_dims `[1]`, collapsed_slice_dims `[0]`, start_index_map `[0]`, index_vector_dim 1,
    slice_sizes `[1, C]`): result element `(e, q)` is the operand at row `idx[e, 0]` — read as a signed integer and
    clamped into `[0, N − 1]` — and column `q` (`gather_rows_apply`);
  * the scatter with an `add` body at the ideal instance (update_window_dims `[1]`, inserted_window_dims `[0]`,
    scatter_dims_to_operand_dims `[0]`, index_vector_dim 1): result element `(n, q)` is the operand's plus the sum
    of `upd[e, q]` over the rows `e` of the updates whose index `idx[e, 0]`, read signed and NOT clamped, is `n`
    (`scatterAdd_rows_apply`); an update row whose index is outside `[0, N)` lands nowhere.

  Everything is stated for arbitrary extents `N`, `E`, `C` and index width `w`; the dimension numbers' side
  conditions are a hypothesis `wf`, decided on a program's literal shapes.
-/
import Idealize.ShloMosaic.PureOps.Ideal
import Idealize.ShloMosaic.Lib.ValueIdx

noncomputable section

open scoped BigOperators

namespace Cert.Lib.RowOps

open Idealize.ShloMosaic Idealize.ShloMosaic.ValueIdx

/-! ## The row gather: `result[e, q] = operand[clamp(idx[e, 0]), q]` -/

section Gather
variable {α : Type}

/-- The row gather's dimension numbers for an operand `[N, C]`, start indices `[E, 1]` and result `[E, C]`:
    axis 0 of the operand is collapsed and is the one the start index addresses, axis 1 is the offset axis and is
    taken whole (slice sizes `[1, C]`); the index vector lives on axis 1 of the start indices. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the operand at the row `idx[e, 0]`, read as a signed integer and clamped into
    `[0, N − 1]`, and at the same column `q`. (On axis 0 the slice has size 1, so the start is clamped to `N − 1`
    and there is no offset; on axis 1 the start is 0 and the offset is the result's column.) -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 ⟨min (idx (ix2 e ⟨0, Nat.one_pos⟩)).toInt.toNat (N - 1), by omega⟩ q) := by
  unfold Host.gather
  congr 1
  funext a
  refine Fin.ext ?_
  match a with
  | ⟨0, _⟩ =>
    -- the row: clamped start, no batching coordinate, no offset (the axis is collapsed)
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    -- the column: start 0 (the start index does not address this axis), offset the result's column
    show (rowGatherDims N E C wf).start (ix2 e q) idx 1 + (rowGatherDims N E C wf).batchCoord (ix2 e q) 1
      + (rowGatherDims N E C wf).offCoord (ix2 e q) 1 = _
    rw [GatherDims.batchCoord_eq_zero _ _ _ List.not_mem_nil]
    unfold GatherDims.start
    rw [dif_neg (show (1 : Fin 2) ∉ (rowGatherDims N E C wf).startIndexMap from
      (show (1 : Fin 2) ∉ [(0 : Fin 2)] from by decide))]
    simp only [Nat.add_zero, Nat.zero_add]
    unfold GatherDims.offCoord
    rw [dif_pos (show (1 : Fin 2) ∈ (rowGatherDims N E C wf).sKept from
      (GatherDims.mem_sKept _ _).2 ⟨(show (1 : Fin 2) ∉ [(0 : Fin 2)] from by decide), List.not_mem_nil⟩)]
    rfl

end Gather

/-! ## The accumulating row scatter: `result[n, q] = operand[n, q] + ∑_{e : idx[e, 0] = n} upd[e, q]` -/

/-- The row scatter's dimension numbers for an operand `[N, C]`, scatter indices `[E, 1]` and updates `[E, C]`:
    axis 1 of the updates is the window axis and goes to the operand's axis 1; the operand's axis 0 is an inserted
    window axis and is the one the scatter index addresses; the index vector lives on axis 1 of the scatter indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- On the operand's row axis the window of update `(e, c)` starts at the scatter index `idx[e, 0]`, read as a
    signed integer (not clamped). -/
theorem rowScatter_start0 (idx : IVec ⟨2, ![E, 1]⟩ w) (e : Fin E) (c : Fin C) :
    (rowScatterDims N E C wf).start (ix2 e c) idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the operand's column axis, which the scatter index does not address, the window starts at 0. -/
theorem rowScatter_start1 (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (show (1 : Fin 2) ∉ [(0 : Fin 2)] from by decide))]

/-- The row axis is an inserted window axis: the window coordinate of update `(e, c)` on it is 0. -/
theorem rowScatter_window0 (e : Fin E) (c : Fin C) :
    (rowScatterDims N E C wf).window (ix2 e c) 0 = 0 := by
  unfold ScatterDims.window
  rw [dif_neg]
  exact (show (0 : Fin 2) ∉ (List.finRange 2).filter (· ∉ [(0 : Fin 2)]) from by decide)

/-- The column axis receives the updates' window axis: the window coordinate of update `(e, c)` on it is `c`. -/
theorem rowScatter_window1 (e : Fin E) (c : Fin C) :
    (rowScatterDims N E C wf).window (ix2 e c) 1 = c.val := by
  unfold ScatterDims.window
  rw [dif_pos]
  · rfl
  · exact (show (1 : Fin 2) ∈ (List.finRange 2).filter (· ∉ [(0 : Fin 2)]) from by decide)

/-- WHERE AN UPDATE LANDS: update element `(e, c)` lands at operand element `(n, q)` exactly when its column is `q`
    and its scatter index `idx[e, 0]`, read signed, is `n`. (The landing index is `(idx[e, 0] + 0, 0 + c)`; the column
    `c < C` is always inside, the row is inside exactly when `0 ≤ idx[e, 0] < N`, and outside the update is dropped.) -/
theorem rowScatter_resultIdx?_eq_some_iff (idx : IVec ⟨2, ![E, 1]⟩ w) (e : Fin E) (c : Fin C) (n : Fin N) (q : Fin C) :
    (rowScatterDims N E C wf).resultIdx? (ix2 e c) idx = some (ix2 n q)
      ↔ c = q ∧ (idx (ix2 e ⟨0, Nat.one_pos⟩)).toInt = (n.val : Int) := by
  have hs0 := rowScatter_start0 wf idx e c
  have hs1 := rowScatter_start1 wf idx e c
  have hw0 := rowScatter_window0 wf e c
  have hw1 := rowScatter_window1 wf e c
  unfold ScatterDims.resultIdx?
  split
  · -- the landing index is inside the operand: compare it with `(n, q)` coordinate by coordinate
    rename_i h
    rw [Option.some.injEq]
    constructor
    · intro hf
      have h0 := congrArg Fin.val (congrFun hf 0)
      have h1 := congrArg Fin.val (congrFun hf 1)
      simp only [hs0, hs1, hw0, hw1] at h0 h1
      have hh := (h 0).1
      rw [hs0, hw0] at hh
      refine ⟨Fin.ext ?_, ?_⟩
      · have : ((ix2 n q : (⟨2, ![N, C]⟩ : Shape).Idx) 1).val = q.val := rfl
        omega
      · have : ((ix2 n q : (⟨2, ![N, C]⟩ : Shape).Idx) 0).val = n.val := rfl
        omega
    · rintro ⟨rfl, ht⟩
      funext a
      refine Fin.ext ?_
      match a with
      | ⟨0, _⟩ =>
        show ((rowScatterDims N E C wf).start (ix2 e c) idx 0
          + ((rowScatterDims N E C wf).window (ix2 e c) 0 : Int)).toNat = n.val
        rw [hs0, hw0, ht]; simp
      | ⟨1, _⟩ =>
        show ((rowScatterDims N E C wf).start (ix2 e c) idx 1
          + ((rowScatterDims N E C wf).window (ix2 e c) 1 : Int)).toNat = c.val
        rw [hs1, hw1]; simp
  · -- the landing index is outside: then the scatter index is not a row number, so the right side fails too
    rename_i h
    constructor
    · intro hf; exact absurd hf (by simp)
    · rintro ⟨rfl, ht⟩
      exfalso
      apply h
      intro a
      match a with
      | ⟨0, _⟩ =>
        show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int)
            < (N : Int)
        rw [hs0, hw0, ht]
        have := n.isLt
        omega
      | ⟨1, _⟩ =>
        show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int)
            < (C : Int)
        rw [hs1, hw1]
        have := c.isLt
        omega

/-- THE ACCUMULATING ROW SCATTER READ AT `(n, q)`, at the ideal instance: the operand's element plus the sum, over the
    update rows `e` whose scatter index `idx[e, 0]` (read signed, not clamped) is `n`, of `upd[e, q]`. (The sum over the
    update elements that land at `(n, q)` is split into rows and columns; in each row only column `q` can land there.) -/
theorem scatterAdd_rows_apply (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (rowScatterDims N E C wf) x idx upd (ix2 n q)
      = x (ix2 n q) + ∑ e : Fin E,
          if (idx (ix2 e ⟨0, Nat.one_pos⟩)).toInt = (n.val : Int) then upd (ix2 e q) else 0 := by
  unfold Ideal.hostScatterAdd
  congr 1
  rw [Finset.sum_filter, sum_idx2]
  refine Finset.sum_congr rfl fun e _ => ?_
  simp only [rowScatter_resultIdx?_eq_some_iff]
  by_cases ht : (idx (ix2 e ⟨0, Nat.one_pos⟩)).toInt = (n.val : Int)
  · simp only [ht, and_true, if_true]
    exact Finset.sum_ite_eq' Finset.univ q (fun c => upd (ix2 e c)) |>.trans (by simp)
  · simp only [ht, and_false, if_false]
    exact Finset.sum_const_zero

end Scatter

end Cert.Lib.RowOps

end
-- ==== Proof.LibGraphOps.lean ====
/-
  THE GRAPH STAGES OF THE HOST PROGRAM, READ AT AN INDEX.

  Between two layers the rows of a node array are collected along the edges: a row gather by the edges' source column
  followed by an accumulating row scatter into zeros by the edges' destination column. Read at `(n, q)` this is the
  sum, over the edges whose destination entry (signed, not clamped) is `n`, of the array's entry at the edge's source row
  (signed, clamped into range) and column `q` (`aggregate_apply`). The per-edge weight of the plain form gathers
  the node factor by a column of indices too (`gather_vec_apply`, the rank-1 gather). An index column that was first
  "wrapped" (a negative entry moved up by the number of nodes) addresses, for an edge whose raw destination entry is a
  node number, that same node: the wrap leaves such an entry alone (`wrap_of_nonneg`).
-/
import proofs.«107906_j18640158064951_2_alg».proof.Proof.LibRowScatter
import proofs.«107906_j18640158064951_2_alg».proof.Proof.LibGcnLaw

noncomputable section

open scoped BigOperators

namespace Cert.Gcn

open Idealize.ShloMosaic Idealize.ShloMosaic.ValueIdx Cert.Lib.RowOps

/-- The row an index column addresses for edge `e`: its entry read signed and clamped into `[0, N − 1]`. -/
def clampRow {N E w : Nat} (hN : 0 < N) (idx : IVec ⟨2, ![E, 1]⟩ w) (e : Fin E) : Fin N :=
  ⟨min (idx (ix2 e ⟨0, Nat.one_pos⟩)).toInt.toNat (N - 1), by omega⟩

/-- Edge `e` lands on node `n`: its entry in the index column, read signed and not clamped, is `n`. -/
def landsOn {N E w : Nat} (idx : IVec ⟨2, ![E, 1]⟩ w) (e : Fin E) (n : Fin N) : Prop :=
  (idx (ix2 e ⟨0, Nat.one_pos⟩)).toInt = (n.val : Int)

instance {N E w : Nat} (idx : IVec ⟨2, ![E, 1]⟩ w) (e : Fin E) (n : Fin N) : Decidable (landsOn idx e n) :=
  inferInstanceAs (Decidable (_ = _))

/-- THE AGGREGATE STAGE at `(n, q)`: rows gathered by `idxG`, then scattered with addition by `idxS` into an array
    of zeros, is the sum over the edges landing on `n` of the gathered row's entry `q`. -/
theorem aggregate_apply {N E C w : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z : (⟨2, ![N, C]⟩ : Shape).Idx → EReal) (hz : ∀ i, z i = 0) (idxS idxG : IVec ⟨2, ![E, 1]⟩ w)
    (h : (⟨2, ![N, C]⟩ : Shape).Idx → EReal) (n : Fin N) (q : Fin C) :
    Ideal.hostScatterAdd (rowScatterDims N E C wfs) z idxS (Host.gather (rowGatherDims N E C wfg) h idxG) (ix2 n q)
      = agg (landsOn idxS) (fun e q => h (ix2 (clampRow hN idxG e) q)) n q := by
  rw [scatterAdd_rows_apply, hz]
  unfold agg landsOn
  simp only [gather_rows_apply hN]
  rfl

/-- The same with per-edge weights: the gathered rows are multiplied by `wgt e` before they are scattered. -/
theorem weighted_aggregate_apply {N E C w : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z : (⟨2, ![N, C]⟩ : Shape).Idx → EReal) (hz : ∀ i, z i = 0) (idxS idxG : IVec ⟨2, ![E, 1]⟩ w)
    (h : (⟨2, ![N, C]⟩ : Shape).Idx → EReal) (wgt : (⟨2, ![E, C]⟩ : Shape).Idx → EReal) (n : Fin N) (q : Fin C) :
    Ideal.hostScatterAdd (rowScatterDims N E C wfs) z idxS
        (fun i => Host.gather (rowGatherDims N E C wfg) h idxG i * wgt i) (ix2 n q)
      = agg (landsOn idxS) (fun e q => h (ix2 (clampRow hN idxG e) q) * wgt (ix2 e q)) n q := by
  rw [scatterAdd_rows_apply, hz]
  unfold agg landsOn
  simp only [gather_rows_apply hN]
  rfl

/-- The rank-1 gather's dimension numbers: a vector `[N]` addressed by an index column `[E, 1]`, one entry each. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE RANK-1 GATHER at `e`: the vector's entry at the clamped index of edge `e`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN idx e)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl

/-- A 32-bit index that is a node number (signed value in `[0, N)`) is not moved by the wrap of negative entries. -/
theorem wrap_of_nonneg (v k : BitVec 32) (h : 0 ≤ v.toInt) :
    Scalar.select (IntOp.cmpi .slt v 0#32) (IntOp.addi v k) v = v := by
  have hs : v.slt 0#32 = false := by
    rw [BitVec.slt]; simp only [BitVec.toInt_zero]; exact decide_eq_false (by omega)
  unfold Scalar.select IntOp.cmpi
  simp only [hs]
  rfl

end Cert.Gcn

end
-- ==== Proof.LibConvForms.lean ====
/-
  ONE LAYER OF THE PLAIN FORM AND ONE COLLECTING STAGE OF THE SCALED FORM, as host operations read at an index.

  The plain form's layer is: the dense product `A W`, its rows gathered along the edges' source column, each gathered
  row multiplied by the edge's weight, the products scattered with addition along the destination column into zeros, the
  bias added. At `(n, q)` that is `conv` of Proof/LibGcnLaw.lean. The scaled form's collecting stage is the same without
  product, weight and bias: at `(n, q)` the sum over the edges landing on `n` of the gathered row's entry.
-/
import proofs.«107906_j18640158064951_2_alg».proof.Proof.LibGraphOps
import proofs.«107906_j18640158064951_2_alg».proof.Proof.LibMatOps
import proofs.«107906_j18640158064951_2_alg».proof.Proof.LibLayerForms

noncomputable section

open scoped BigOperators

namespace Cert.Gcn

open Idealize.ShloMosaic Idealize.ShloMosaic.ValueIdx Cert.Lib.RowOps Cert.MatOps

/-- ONE LAYER OF THE PLAIN FORM at `(n, q)`. -/
theorem conv_layer_apply {N E K C w : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (wfd : DotDims.WF ⟨2, ![N, K]⟩ ⟨2, ![K, C]⟩ ⟨2, ![N, C]⟩ [1] [0] [0] [1] [] [])
    (sched : HostSchedule) (z : (⟨2, ![N, C]⟩ : Shape).Idx → EReal) (hz : ∀ i, z i = 0)
    (idxS idxG : IVec ⟨2, ![E, 1]⟩ w)
    (A : (⟨2, ![N, K]⟩ : Shape).Idx → EReal) (W : (⟨2, ![K, C]⟩ : Shape).Idx → EReal)
    (wgt : (⟨2, ![E, C]⟩ : Shape).Idx → EReal) (bb : (⟨2, ![N, C]⟩ : Shape).Idx → EReal)
    (nrm : Fin E → EReal) (b : Fin C → EReal)
    (hw : ∀ e q, wgt (ix2 e q) = nrm e) (hb : ∀ n q, bb (ix2 n q) = b q) (n : Fin N) (q : Fin C) :
    Ideal.hostScatterAdd (rowScatterDims N E C wfs) z idxS
        (fun i => Host.gather (rowGatherDims N E C wfg)
          (FloatOps.dotGeneral (F := Ideal) (φ₁ := .f32) (φ₂ := .f32) (plainDot N K C wfd) none sched A W) idxG i * wgt i) (ix2 n q)
        + bb (ix2 n q)
      = conv (landsOn idxS) (clampRow hN idxG) (rc A) (rc W) b nrm n q := by
  rw [weighted_aggregate_apply hN wfg wfs z hz, hb]
  unfold conv agg
  congr 2
  refine Finset.sum_congr rfl fun e _ => ?_
  split_ifs
  · show FloatOps.dotGeneral (F := Ideal) (φ₁ := .f32) (φ₂ := .f32) (plainDot N K C wfd) none sched A W (ix2 (clampRow hN idxG e) q) * wgt (ix2 e q)
      = mat (rc A) (rc W) (clampRow hN idxG e) q * nrm e
    rw [hw, dotGeneral_plain_apply]
    rfl
  · rfl

/-- The host's accumulating scatter at the exact instance is the exact sum (by definition, stated once for any shapes). -/
theorem scatterAdd_ideal {s si su : Shape} (d : ScatterDims s si su) {w : Nat} (x : FVec Ideal s .f32) (idx : IVec si w)
    (upd : FVec Ideal su .f32) : Host.scatterAdd (F := Ideal) d x idx upd = Ideal.hostScatterAdd d x idx upd := rfl

/-- ONE LAYER OF THE PLAIN FORM, spelt as the host program spells it (the elementwise product and the host's dot). -/
theorem conv_layer_host_apply {N E K C w : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (wfd : DotDims.WF ⟨2, ![N, K]⟩ ⟨2, ![K, C]⟩ ⟨2, ![N, C]⟩ [1] [0] [0] [1] [] [])
    (z : FVec Ideal ⟨2, ![N, C]⟩ .f32) (hz : ∀ i, z i = 0) (idxS idxG : IVec ⟨2, ![E, 1]⟩ w)
    (A : FVec Ideal ⟨2, ![N, K]⟩ .f32) (W : FVec Ideal ⟨2, ![K, C]⟩ .f32)
    (wgt : FVec Ideal ⟨2, ![E, C]⟩ .f32) (bb : FVec Ideal ⟨2, ![N, C]⟩ .f32)
    (nrm : Fin E → EReal) (b : Fin C → EReal)
    (hw : ∀ e q, wgt (ix2 e q) = nrm e) (hb : ∀ n q, bb (ix2 n q) = b q) (n : Fin N) (q : Fin C) :
    Ideal.hostScatterAdd (rowScatterDims N E C wfs) z idxS
        (mulf (Host.gather (rowGatherDims N E C wfg) (Host.dotGeneral (F := Ideal) (plainDot N K C wfd) none A W) idxG) wgt) (ix2 n q)
        + bb (ix2 n q)
      = conv (landsOn idxS) (clampRow hN idxG) (rc A) (rc W) b nrm n q :=
  conv_layer_apply hN wfg wfs wfd .single z hz idxS idxG A W wgt bb nrm b hw hb n q

/-- ONE COLLECTING STAGE OF THE SCALED FORM, spelt as the host program spells it (the gathered rows widened before
    they are accumulated; a change of float format is the identity at the exact instance). -/
theorem collect_stage_apply {N E C w : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z : FVec Ideal ⟨2, ![N, C]⟩ .f32) (hz : ∀ i, z i = 0) (idxS idxG : IVec ⟨2, ![E, 1]⟩ w)
    (h : FVec Ideal ⟨2, ![N, C]⟩ .bf16) (hbits : FTy.bf16.bits < FTy.f32.bits) (n : Fin N) (q : Fin C) :
    Ideal.hostScatterAdd (rowScatterDims N E C wfs) z idxS (extf .f32 (Host.gather (rowGatherDims N E C wfg) h idxG) hbits) (ix2 n q)
      = agg (landsOn idxS) (fun e q => h (ix2 (clampRow hN idxG e) q)) n q :=
  aggregate_apply hN wfg wfs z hz idxS idxG h n q

end Cert.Gcn

end
-- ==== Proof.Consts.lean ====
/-
  The two float constants of the degree normalisation, as the extended reals their patterns denote: the exponent
  `-1/2` of the inverse square root, and the node factor in terms of the degree `a`: `a ^ (-1/2)` where `a > 0`, else
  `0`. Whatever extended real the degree is, that factor is a real number: a positive real gives a real power, `+∞`
  gives `0`, and anything not above zero gives the literal `0`.
-/
import Idealize.ShloMosaic.PureOps.Ideal.Laws
import Idealize.ShloMosaic.Lib.ValueIdx

noncomputable section

namespace Cert.Consts

open Idealize.ShloMosaic

/-- The pattern `0xBF000000` denotes `-1/2`. -/
theorem ofBits_neg_half : Ideal.ofBits .f32 0xBF000000#32 = ((-(1 / 2) : ℝ) : EReal) := by
  simp [Ideal.ofBits, Ideal.ieee, -EReal.coe_mul]; norm_num

/-- The node factor is a real number whatever the degree: `select (a > 0) (a ^ (-1/2)) 0`. -/
theorem factor_real (a : EReal) :
    ∃ r : ℝ, Scalar.select (Ideal.cmp .ogt a (Ideal.ofBits .f32 0x00000000#32))
      (Ideal.pow a (Ideal.ofBits .f32 0xBF000000#32)) (Ideal.ofBits .f32 0x00000000#32) = (r : EReal) := by
  rw [ofBits_neg_half, Ideal.ofBits_zero_f32]
  induction a using EReal.rec with
  | bot =>
    refine ⟨0, ?_⟩
    have : Ideal.cmp .ogt ⊥ 0 = 0#1 := by simp [Ideal.cmp]
    rw [this, ValueIdx.select_zero]; rfl
  | coe x =>
    by_cases hx : (0 : EReal) < (x : EReal)
    · refine ⟨Real.rpow x (-(1 / 2)), ?_⟩
      have : Ideal.cmp .ogt (x : EReal) 0 = 1#1 := by simp [Ideal.cmp, hx]
      rw [this, ValueIdx.select_one]; rfl
    · refine ⟨0, ?_⟩
      have : Ideal.cmp .ogt (x : EReal) 0 = 0#1 := by simp [Ideal.cmp, hx]
      rw [this, ValueIdx.select_zero]; rfl
  | top =>
    refine ⟨0, ?_⟩
    have : Ideal.cmp .ogt ⊤ 0 = 1#1 := by simp [Ideal.cmp]
    rw [this, ValueIdx.select_one]
    show Ideal.pow ⊤ ((-(1 / 2) : ℝ) : EReal) = _
    have h1 : ¬ (0 : EReal) < ((-(1 / 2) : ℝ) : EReal) := by
      rw [not_lt]; exact_mod_cast (by norm_num : (-(1 / 2) : ℝ) ≤ 0)
    have h2 : ((-(1 / 2) : ℝ) : EReal) ≠ 0 := by
      intro h; have : (-(1 / 2) : ℝ) = 0 := by exact_mod_cast h
      norm_num at this
    show (if (0 : EReal) < ((-(1 / 2) : ℝ) : EReal) then (⊤ : EReal) else if ((-(1 / 2) : ℝ) : EReal) = 0 then 1 else 0) = _
    rw [if_neg h1, if_neg h2]
    rfl

end Cert.Consts

end
-- ==== Proof.RefBasics.lean ====
/-
  THE PLAIN PROGRAM, LAYER BY LAYER. Its run ends at the composed term of its host operations; here that term is read
  at an index. The edges' source column is wrapped and clamped into a source node `g e`; an edge lands on node `n` when
  its raw destination entry is `n`; the node factor `d n` is `deg n ^ (-1/2)` where the degree is positive and `0`
  elsewhere (a real number whatever the degree); an edge's weight is the product of the factors gathered at its source
  and at its wrapped, clamped destination, which for an edge landing on `n` is `d (g e) · d n`. Each of the four layers is
  `conv` of Proof/LibGcnLaw.lean over the activation before it, the first three followed by the clamp at zero.
-/
import proofs.«107906_j18640158064951_2_alg».proof.Proof.RefRead
import proofs.«107906_j18640158064951_2_alg».proof.Proof.LibConvForms
import proofs.«107906_j18640158064951_2_alg».proof.Proof.Consts

noncomputable section

open scoped BigOperators

namespace Cert.ReferenceIdeal.Plain

open Cert.ReferenceIdeal Cert.ReferenceIdeal.Gen Cert.ReferenceIdeal.ReadP Idealize.ShloMosaic Idealize.ShloMosaic.ValueIdx
open Cert.Gcn Cert.Lib.RowOps Cert.MatOps Idealize.ShloMosaic.RealEntries

/-- The source node of edge `e`: its wrapped source entry clamped into range. -/
abbrev gOf (x1 : (⟨S2x800000, .i32⟩ : BufTy).Contents (Elt Ideal)) : Fin 850000 → Fin 50000 :=
  clampRow (N := 50000) (by decide) (val_main_v21 (F := Ideal) x1)

/-- Edge `e` lands on node `n`: its raw destination entry is `n`. -/
abbrev landsOf (x1 : (⟨S2x800000, .i32⟩ : BufTy).Contents (Elt Ideal)) : Fin 850000 → Fin 50000 → Prop :=
  landsOn (N := 50000) (val_main_v9 (F := Ideal) x1)

/-- The node factor. -/
def dOf (x1 : (⟨S2x800000, .i32⟩ : BufTy).Contents (Elt Ideal)) (n : Fin 50000) : EReal := val_main_v15 (F := Ideal) x1 (ix1 n)

/-- The weight of edge `e`. -/
def nrmOf (x1 : (⟨S2x800000, .i32⟩ : BufTy).Contents (Elt Ideal)) (e : Fin 850000) : EReal := val_main_v30 (F := Ideal) x1 (ix1 e)

/-- The node factor is a real number, whatever the degree. -/
theorem isReal_dOf (x1 : (⟨S2x800000, .i32⟩ : BufTy).Contents (Elt Ideal)) (n : Fin 50000) : IsReal (dOf x1 n) := by
  unfold dOf
  rw [val_main_v15_apply, val_main_v12_apply, val_main_v14_apply, val_main_v11_apply, val_main_cst_1_apply, val_main_v13_apply,
    val_main_cst_2_apply, val_main_call0_v1_apply, val_main_call0_v0_apply, val_main_cst_3_apply]
  exact Cert.Consts.factor_real _

/-- An edge landing on `n` weighs `d (g e) · d n`: its raw destination entry is a node number, so the wrap leaves it
    and the clamp keeps it. -/
theorem nrm_of_lands (x1 : (⟨S2x800000, .i32⟩ : BufTy).Contents (Elt Ideal)) (e : Fin 850000) (n : Fin 50000) (h : landsOf x1 e n) :
    nrmOf x1 e = dOf x1 (gOf x1 e) * dOf x1 n := by
  have hv : (val_main_v6 (F := Ideal) x1 (ix1 e)).toInt = (n.val : Int) := by
    have h9 : val_main_v9 (F := Ideal) x1 (ix2 e ⟨0, Nat.one_pos⟩) = val_main_v6 (F := Ideal) x1 (ix1 e) := by
      rw [val_main_v9_apply]
      exact congrArg (val_main_v6 (F := Ideal) x1) (funext fun a => match a with | ⟨0, _⟩ => rfl)
    rw [← h9]; exact h
  have h28 : val_main_v28 (F := Ideal) x1 (ix2 e ⟨0, Nat.one_pos⟩) = val_main_v6 (F := Ideal) x1 (ix1 e) := by
    rw [val_main_v28_apply]
    have hj : idx_main_v28 (ix2 e ⟨0, Nat.one_pos⟩) = ix1 e := funext fun a => match a with | ⟨0, _⟩ => rfl
    rw [hj, val_main_v27_apply, val_main_v24_apply, val_main_v26_apply]
    exact wrap_of_nonneg _ _ (by rw [hv]; exact Int.natCast_nonneg _)
  have hD : clampRow (N := 50000) (by decide) (val_main_v28 (F := Ideal) x1) e = n := by
    apply Fin.ext
    show min (val_main_v28 (F := Ideal) x1 (ix2 e ⟨0, Nat.one_pos⟩)).toInt.toNat (50000 - 1) = n.val
    rw [h28, hv]
    have := n.isLt
    omega
  unfold nrmOf dOf
  rw [val_main_v30_apply]
  show Host.gather (vecGatherDims 50000 850000 gather_S50000_S850000x1_S850000_n_0_n_n_0_1_1_wf) (val_main_v15 (F := Ideal) x1) (val_main_v21 (F := Ideal) x1) (ix1 e)
      * Host.gather (vecGatherDims 50000 850000 gather_S50000_S850000x1_S850000_n_0_n_n_0_1_1_wf) (val_main_v15 (F := Ideal) x1) (val_main_v28 (F := Ideal) x1) (ix1 e) = _
  rw [gather_vec_apply (by decide), gather_vec_apply (by decide), hD]

/-- The four layers' wrapped source columns are one term, and their destination columns are one term. -/
theorem gcol2 (x1 : (⟨S2x800000, .i32⟩ : BufTy).Contents (Elt Ideal)) : val_main_v37 (F := Ideal) x1 = val_main_v21 (F := Ideal) x1 := rfl
theorem gcol3 (x1 : (⟨S2x800000, .i32⟩ : BufTy).Contents (Elt Ideal)) : val_main_v55 (F := Ideal) x1 = val_main_v21 (F := Ideal) x1 := rfl
theorem gcol4 (x1 : (⟨S2x800000, .i32⟩ : BufTy).Contents (Elt Ideal)) : val_main_v73 (F := Ideal) x1 = val_main_v21 (F := Ideal) x1 := rfl
theorem gcol5 (x1 : (⟨S2x800000, .i32⟩ : BufTy).Contents (Elt Ideal)) : val_main_v91 (F := Ideal) x1 = val_main_v21 (F := Ideal) x1 := rfl
theorem scol2 (x1 : (⟨S2x800000, .i32⟩ : BufTy).Contents (Elt Ideal)) : val_main_v43 (F := Ideal) x1 = val_main_v9 (F := Ideal) x1 := rfl
theorem scol3 (x1 : (⟨S2x800000, .i32⟩ : BufTy).Contents (Elt Ideal)) : val_main_v61 (F := Ideal) x1 = val_main_v9 (F := Ideal) x1 := rfl
theorem scol4 (x1 : (⟨S2x800000, .i32⟩ : BufTy).Contents (Elt Ideal)) : val_main_v79 (F := Ideal) x1 = val_main_v9 (F := Ideal) x1 := rfl
theorem scol5 (x1 : (⟨S2x800000, .i32⟩ : BufTy).Contents (Elt Ideal)) : val_main_v96 (F := Ideal) x1 = val_main_v9 (F := Ideal) x1 := rfl

end Cert.ReferenceIdeal.Plain

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.Stage0.lean ====
/-
  THE DEVICE PROGRAM'S RESULT, STRETCH BY STRETCH. Reading the fold of the eleven stretches at the buffers that matter:
  the edge columns and the node-factor column after the first three host stretches; each layer's output array after
  its region (the layer's whole-array form, Proof/Layer0–3); after each collecting stretch the rows collected along the
  edges (gathered by the wrapped, clamped source column, scattered with addition by the destination column into zeros);
  and at the end the last collected column scaled by the node factor plus the last bias. The edge columns and the node
  factor are the same terms of the edge-index argument as the plain program's, so both programs speak of one source
  node `g e`, one landing relation and one factor `d`. The result is the scaled form of Proof/LibGcnLaw.lean.
-/
import proofs.«107906_j18640158064951_2_alg».proof.Proof.Carry
import proofs.«107906_j18640158064951_2_alg».proof.Proof.Layer0
import proofs.«107906_j18640158064951_2_alg».proof.Proof.RefBasics
import proofs.«107906_j18640158064951_2_alg».proof.Proof.LibConvForms
import proofs.«107906_j18640158064951_2_alg».proof.Proof.LibColumnCast
import Idealize.ShloMosaic.Lib.ValueLayout
import Idealize.ShloMosaic.Lib.StableHlo.Run

set_option maxRecDepth 16384

noncomputable section

open scoped BigOperators

namespace Cert.KernelIdeal.Stages

open Cert.KernelIdeal Cert.KernelIdeal.Gen Cert.KernelIdeal.Carry Idealize.ShloMosaic Idealize.ShloMosaic.TcCoe
open Idealize.ShloMosaic.ValueIdx Idealize.ShloMosaic.StableHlo Idealize.SL.Sem Cert.Gcn Cert.Lib.RowOps

variable (m : (ℓ : Loc nD τ sig) → Buf (Elt Ideal) ℓ) (ρ : Dev nD → PrngReg) (c : Dev nD)

/-- The argument arrays as launched. -/
abbrev a0 : S50000x1.Idx → EReal := m ((c : Thread nD τ).loc main_arg0)
abbrev a1 : S2x800000.Idx → BitVec 32 := m ((c : Thread nD τ).loc main_arg1)
abbrev a2 : S1x256.Idx → EReal := m ((c : Thread nD τ).loc main_arg2)
abbrev a3 : S256.Idx → EReal := m ((c : Thread nD τ).loc main_arg3)
abbrev a4 : S256x128.Idx → EReal := m ((c : Thread nD τ).loc main_arg4)
abbrev a5 : S128.Idx → EReal := m ((c : Thread nD τ).loc main_arg5)
abbrev a6 : S128x64.Idx → EReal := m ((c : Thread nD τ).loc main_arg6)
abbrev a7 : S64.Idx → EReal := m ((c : Thread nD τ).loc main_arg7)
abbrev a8 : S64x1.Idx → EReal := m ((c : Thread nD τ).loc main_arg8)
abbrev a9 : S1.Idx → EReal := m ((c : Thread nD τ).loc main_arg9)

/-- The node factor, the source node and the landing relation: the plain program's, of the same edge-index argument. -/
abbrev d : Fin 50000 → EReal := Cert.ReferenceIdeal.Plain.dOf (a1 m c)
abbrev g : Fin 850000 → Fin 50000 := Cert.ReferenceIdeal.Plain.gOf (a1 m c)
abbrev lands : Fin 850000 → Fin 50000 → Prop := Cert.ReferenceIdeal.Plain.landsOf (a1 m c)

/-! ## After the first three host stretches -/

/-- The source column is the plain program's term of the edge-index argument. -/
theorem src3 : (W3 m ρ c (Proc.devRef .tc main_v3) : S850000.Idx → BitVec 32) = Cert.ReferenceIdeal.ReadP.val_main_v3 (F := Ideal) (a1 m c) := by
  show StableHlo.after hostOps0_2 (StableHlo.after hostOps0_1 (StableHlo.after hostOps0 (W0 m ρ c))) (Proc.devRef .tc main_v3) = _
  after_results
  rfl

/-- The destination column likewise. -/
theorem dst3 : (W3 m ρ c (Proc.devRef .tc main_v6) : S850000.Idx → BitVec 32) = Cert.ReferenceIdeal.ReadP.val_main_v6 (F := Ideal) (a1 m c) := by
  show StableHlo.after hostOps0_2 (StableHlo.after hostOps0_1 (StableHlo.after hostOps0 (W0 m ρ c))) (Proc.devRef .tc main_v6) = _
  after_results
  rfl

set_option maxHeartbeats 4000000 in
/-- After the first host stretch: the mask "degree above zero", the power `deg ^ (-1/2)` and the literal zero are the plain
    program's terms of the edge-index argument. -/
theorem mask1 : (W1 m ρ c (Proc.devRef .tc main_v12) : S50000.Idx → BitVec 1) = Cert.ReferenceIdeal.ReadP.val_main_v12 (F := Ideal) (a1 m c) := by
  show StableHlo.after hostOps0 (W0 m ρ c) (Proc.devRef .tc main_v12) = _
  after_results
  rfl

set_option maxHeartbeats 4000000 in
theorem pow1 : (W1 m ρ c (Proc.devRef .tc main_v14) : S50000.Idx → EReal) = Cert.ReferenceIdeal.ReadP.val_main_v14 (F := Ideal) (a1 m c) := by
  show StableHlo.after hostOps0 (W0 m ρ c) (Proc.devRef .tc main_v14) = _
  after_results
  rfl

set_option maxHeartbeats 4000000 in
theorem zero1 : (W1 m ρ c (Proc.devRef .tc main_cst_3) : S_.Idx → EReal) = Cert.ReferenceIdeal.ReadP.val_main_cst_3 (F := Ideal) := by
  show StableHlo.after hostOps0 (W0 m ρ c) (Proc.devRef .tc main_cst_3) = _
  after_results
  rfl

/-- Contents read through a typed reference and written back are the contents. -/
theorem ofBuf_toBuf {T : BufTy} (x : StableHlo.TRef sig T) (v : T.Contents (Elt Ideal)) : x.ofBuf (x.toBuf v) = v := by
  unfold StableHlo.TRef.ofBuf StableHlo.TRef.toBuf
  simp

/-- At the selection's buffers the typed reference's transport is the identity: each buffer's type is the value's. -/
theorem toBuf_v15 (v : (⟨S50000, .f32⟩ : BufTy).Contents (Elt Ideal)) :
    (StableHlo.TRef.of main_v15 : StableHlo.TRef sig ⟨S50000, .f32⟩).toBuf v = v := rfl
theorem ofBuf_v12 (v : main_v12.ty.Contents (Elt Ideal)) :
    (StableHlo.TRef.of main_v12 : StableHlo.TRef sig ⟨S50000, .i1⟩).ofBuf v = v := rfl
theorem ofBuf_v14 (v : main_v14.ty.Contents (Elt Ideal)) :
    (StableHlo.TRef.of main_v14 : StableHlo.TRef sig ⟨S50000, .f32⟩).ofBuf v = v := rfl
theorem ofBuf_cst3 (v : main_cst_3.ty.Contents (Elt Ideal)) :
    (StableHlo.TRef.of main_cst_3 : StableHlo.TRef sig ⟨S_, .f32⟩).ofBuf v = v := rfl

set_option maxHeartbeats 4000000 in
/-- After the second host stretch (the selection): the node-factor vector is the plain program's. -/
theorem dvec2 : (W2 m ρ c (Proc.devRef .tc main_v15) : S50000.Idx → EReal) = Cert.ReferenceIdeal.ReadP.val_main_v15 (F := Ideal) (a1 m c) := by
  have hm := mask1 m ρ c
  have hp := pow1 m ρ c
  have hz := zero1 m ρ c
  show StableHlo.after hostOps0_1 (W1 m ρ c) (Proc.devRef .tc main_v15) = _
  generalize W1 m ρ c = V1 at hm hp hz ⊢
  after_results
  rw [hm, hp, hz, ofBuf_toBuf, ofBuf_toBuf, toBuf_v15, ofBuf_v12, ofBuf_v14, ofBuf_cst3]
  rfl

set_option maxHeartbeats 4000000 in
/-- The node-factor column is the plain program's factor vector recast as a column. -/
theorem dcol3 : (W3 m ρ c (Proc.devRef .tc main_v16) : S50000x1.Idx → EReal)
    = shapeCast S50000x1 (Cert.ReferenceIdeal.ReadP.val_main_v15 (F := Ideal) (a1 m c)) shapeCasts_S50000_S50000x1 := by
  have hd := dvec2 m ρ c
  show StableHlo.after hostOps0_2 (W2 m ρ c) (Proc.devRef .tc main_v16) = _
  generalize W2 m ρ c = V2 at hd ⊢
  after_results
  rw [hd]
  rfl

/-- Read as a function of the node it is the factor `d`. -/
theorem col_dcol : col (W3 m ρ c (Proc.devRef .tc main_v16) : S50000x1.Idx → EReal) = d m c := by
  funext n
  show (W3 m ρ c (Proc.devRef .tc main_v16) : S50000x1.Idx → EReal) (ix2 n (0 : Fin 1)) = _
  rw [dcol3]
  exact Cert.LibColumnCast.column_cast _ _ n 0

/-- The destination column broadcast to `[E, 1]`, and the wrapped source column broadcast to `[E, 1]`, are the plain
    program's index columns. -/
theorem idxS_eq (x1 : S2x800000.Idx → BitVec 32) :
    broadcastInDim S850000x1 ![0] bcast_S850000_S850000x1_0 (Cert.ReferenceIdeal.ReadP.val_main_v6 (F := Ideal) x1) = Cert.ReferenceIdeal.ReadP.val_main_v9 (F := Ideal) x1 := rfl

theorem idxG_eq (x1 : S2x800000.Idx → BitVec 32) :
    broadcastInDim S850000x1 ![0] bcast_S850000_S850000x1_0
      (select (cmpi .slt (Cert.ReferenceIdeal.ReadP.val_main_v3 (F := Ideal) x1) (broadcastInDim S850000 ![] bcast_S_S850000 (constantI S_ 32 0#32)))
        (addi (Cert.ReferenceIdeal.ReadP.val_main_v3 (F := Ideal) x1) (broadcastInDim S850000 ![] bcast_S_S850000 (constantI S_ 32 50000#32)))
        (Cert.ReferenceIdeal.ReadP.val_main_v3 (F := Ideal) x1)) = Cert.ReferenceIdeal.ReadP.val_main_v21 (F := Ideal) x1 := rfl

/-! ## The first layer's region -/

/-- The first layer's output array: its whole-array form of the input, the factor column and the first weights. -/
theorem hd1_eq : (W4 m ρ c (Proc.devRef .tc main_v17) : S50000x256.Idx → EReal)
    = firstForm (a0 m c) (W3 m ρ c (Proc.devRef .tc main_v16) : S50000x1.Idx → EReal) (a2 m c) := by
  refine (W4_arr m ρ c 3).trans ((Cert.KernelIdeal.Layer0.final (V3 m ρ) c).trans ?_)
  have e0 := carry_arg0_3 m ρ c
  have e2 := carry_arg2_3 m ρ c
  show firstForm (W3 m ρ c (Proc.devRef .tc main_arg0) : S50000x1.Idx → EReal) _ (W3 m ρ c (Proc.devRef .tc main_arg2) : S1x256.Idx → EReal) = _
  rw [e0, e2]

end Cert.KernelIdeal.Stages

end
-- ==== Proof.Layer1.lean ====
/-
  THE SECOND LAYER ON THE DEVICE: what its output array holds after the run, as one function of the arrays the
  region finds. The grid has 25 points; point `t` reads rows `2000 t … 2000 t + 1999` of the collected rows `s` and of
  the node-factor column `d`, the whole bias row `b` and the whole weight matrix `W`, and writes the same rows of the
  output: entry `(n, q)` is `(∑ k, max (d n · s (n, k) + b k) 0 · W (k, q)) · d n`. The 25 blocks of 2000 rows tile
  the 50000 rows, so the whole array ends at that function.
-/
import proofs.«107906_j18640158064951_2_alg».proof.Proof.Gen.KernelIdeal.Frame
import proofs.«107906_j18640158064951_2_alg».proof.Proof.LibMatOps
import proofs.«107906_j18640158064951_2_alg».proof.Proof.LibLayerForms
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD)

/-- The arrays the region reads, as it finds them: the collected rows, the factor column, the bias row, the weights. -/
abbrev sArr : S50000x256.Idx → EReal := V c main_v28
abbrev dArr : S50000x1.Idx → EReal := V c main_v16
abbrev bArr : S1x256.Idx → EReal := V c main_v29
abbrev wArr : S256x128.Idx → EReal := V c main_arg4

theorem hz : (![0, 0] : Fin 2 → Nat) = fun _ => 0 := funext fun a => by fin_cases a <;> rfl

/-- The body's stored value at row `p`, column `q` of the block, from the blocks it loaded. -/
theorem payload_apply (v0 : Vec Ideal S2000x1 .f32) (v2 : Vec Ideal S2000x256 .f32) (v6 : Vec Ideal S1x256 .f32)
    (v13 : Vec Ideal S256x128 .f32) (v16 : Vec Ideal S2000x1 .f32) (p : Fin 2000) (q : Fin 128) :
    k1_pay1 (F := Ideal) v0 v2 v6 v13 v16 (ix2 p q)
      = (∑ k : Fin 256, max (v0 (ix2 p (0 : Fin 1)) * v2 (ix2 p k) + v6 (ix2 (0 : Fin 1) k)) 0 * v13 (ix2 k q))
          * v16 (ix2 p (0 : Fin 1)) := by
  unfold k1_pay1
  rw [truncf_apply, mulf_apply]
  congr 1
  · refine (Cert.MatOps.matmul_plain_apply (M := 2000) (K := 256) (C := 128) dot_S2000x256_S256x128_S2000x128_1_0_0_1_n_n.wf none _ _ p q).trans ?_
    refine Finset.sum_congr rfl fun k _ => ?_
    congr 1
    rw [truncf_apply, maximumf_apply, addf_apply, mulf_apply, Cert.MatOps.broadcastTo_a1_ab_apply,
      broadcastTo_1b_ab_apply, shapeCast_self, shapeCast_self, shapeCast_self]
    show max _ (Ideal.ofBits .f32 0x00000000#32) = _
    rw [Ideal.ofBits_zero_f32]
  · rw [Cert.MatOps.broadcastTo_a1_ab_apply, shapeCast_self]

/-- How the five windows' block indices move with the point: the row blocks with the point, the rest fixed. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 1600000 in
/-- WHAT POINT `t` WRITES BACK is block `t` of the layer's form of the arrays as the region finds them. -/
theorem flushed_eq (t : Fin cfg1.N) :
    (dat1 V c).flushed 4 t = ((cfg1.win 4).blk t).view.read (Elt Ideal)
      (Cert.Gcn.midForm (sArr V c) (dArr V c) (bArr V c) (wArr V c)) := by
  show (cfg1.win 4).cut (grid1.coords t) ((dat1 V c).after 4 t) = _
  rw [after1_4]
  unfold out1_4
  rw [View.canon_unit_zero hz]
  simp only [View.ld_unit_zero (S := S2000x1) hz, View.ld_unit_zero (S := S2000x256) hz, View.ld_unit_zero (S := S1x256) hz,
    View.ld_unit_zero (S := S256x128) hz]
  obtain ⟨e0, e1, e2, e3, e4, e5, e6, e7, e8, e9⟩ := idx_facts t
  funext j
  obtain ⟨p, q, rfl⟩ : ∃ (p : Fin 2000) (q : Fin 128), j = ix2 p q := ⟨j 0, j 1, eq_ix2 j⟩
  refine (payload_apply (iblk1 V c 1 t) (iblk1 V c 0 t) (iblk1 V c 2 t) (iblk1 V c 3 t) (iblk1 V c 1 t) p q).trans ?_
  have hp : p.val < 2000 := p.isLt
  have hq : q.val < 128 := q.isLt
  have ht : t.val < 25 := lt_of_lt_of_eq t.isLt N_1
  have ho : ((cfg1.win 4).blk t).view.emb (ix2 p q) = ix2 (⟨t.val * 2000 + p.val, by omega⟩ : Fin 50000) q := by
    funext a; apply Fin.ext
    match a with
    | ⟨0, _⟩ => show win1_4.index t (0 : Fin 2) * 2000 + 1 * p.val = t.val * 2000 + p.val; omega
    | ⟨1, _⟩ => show win1_4.index t (1 : Fin 2) * 128 + 1 * q.val = q.val; omega
  have h0 : ∀ k : Fin 256, ((cfg1.win 0).blk t).view.emb (ix2 p k) = ix2 (⟨t.val * 2000 + p.val, by omega⟩ : Fin 50000) k := by
    intro k; funext a; apply Fin.ext
    match a with
    | ⟨0, _⟩ => show win1_0.index t (0 : Fin 2) * 2000 + 1 * p.val = t.val * 2000 + p.val; omega
    | ⟨1, _⟩ => show win1_0.index t (1 : Fin 2) * 256 + 1 * k.val = k.val; omega
  have h1 : ((cfg1.win 1).blk t).view.emb (ix2 p (0 : Fin 1)) = ix2 (⟨t.val * 2000 + p.val, by omega⟩ : Fin 50000) (0 : Fin 1) := by
    funext a; apply Fin.ext
    match a with
    | ⟨0, _⟩ => show win1_1.index t (0 : Fin 2) * 2000 + 1 * p.val = t.val * 2000 + p.val; omega
    | ⟨1, _⟩ => show win1_1.index t (1 : Fin 2) * 1 + 1 * 0 = 0; omega
  have h2 : ∀ k : Fin 256, ((cfg1.win 2).blk t).view.emb (ix2 (0 : Fin 1) k) = ix2 (0 : Fin 1) k := by
    intro k; funext a; apply Fin.ext
    match a with
    | ⟨0, _⟩ => show win1_2.index t (0 : Fin 2) * 1 + 1 * 0 = 0; omega
    | ⟨1, _⟩ => show win1_2.index t (1 : Fin 2) * 256 + 1 * k.val = k.val; omega
  have h3 : ∀ k : Fin 256, ((cfg1.win 3).blk t).view.emb (ix2 k q) = ix2 k q := by
    intro k; funext a; apply Fin.ext
    match a with
    | ⟨0, _⟩ => show win1_3.index t (0 : Fin 2) * 256 + 1 * k.val = k.val; omega
    | ⟨1, _⟩ => show win1_3.index t (1 : Fin 2) * 128 + 1 * q.val = q.val; omega
  show (∑ k : Fin 256, max (dArr V c (((cfg1.win 1).blk t).view.emb (ix2 p (0 : Fin 1)))
        * sArr V c (((cfg1.win 0).blk t).view.emb (ix2 p k))
        + bArr V c (((cfg1.win 2).blk t).view.emb (ix2 (0 : Fin 1) k))) 0
        * wArr V c (((cfg1.win 3).blk t).view.emb (ix2 k q)))
      * dArr V c (((cfg1.win 1).blk t).view.emb (ix2 p (0 : Fin 1)))
    = Cert.Gcn.midForm (sArr V c) (dArr V c) (bArr V c) (wArr V c) (((cfg1.win 4).blk t).view.emb (ix2 p q))
  rw [ho, Cert.Gcn.midForm_apply, h1]
  simp only [h0, h2, h3]

/-- An index of the output array is in point `t`'s block iff each coordinate is in the block's range. -/
theorem mem_blk (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v30).slice (win1_4.rect t)).set ↔ _
  rw [View.set_slice_whole, Rect.mem_set_unit]
  exact Iff.rfl

/-- Every row is in the block of the point `row / 2000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e0, e1, e2, e3, e4, e5, e6, e7, e8, e9⟩ := idx_facts t
  have htv : t.val = (i 0).val / 2000 := rfl
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 128 ≤ (i 1).val ∧ (i 1).val < win1_4.index t (1 : Fin 2) * 128 + 128
    omega

/-- THE OUTPUT ARRAY after the region: the layer's form of the arrays the region found. -/
theorem final : (dat1 V c).arrAt 4 cfg1.N = Cert.Gcn.midForm (sArr V c) (dArr V c) (bArr V c) (wArr V c) :=
  (dat1 V c).arrAt_eq_of_cover 4 _ (fun t _ => flushed_eq V c t) cover

end Cert.KernelIdeal.Layer1

end
-- ==== Proof.Stage1.lean ====
/-
  THE FIRST COLLECTING STRETCH AND THE SECOND LAYER'S REGION of the device program: the rows collected along the edges
  after layer 1, the bias row of layer 2, and layer 2's output array in its whole-array form.
-/
import proofs.«107906_j18640158064951_2_alg».proof.Proof.Stage0
import proofs.«107906_j18640158064951_2_alg».proof.Proof.Layer1
import Idealize.ShloMosaic.Lib.ValueLayout
import Idealize.ShloMosaic.Lib.StableHlo.Run

set_option maxRecDepth 16384

noncomputable section

open scoped BigOperators

namespace Cert.KernelIdeal.Stages

open Cert.KernelIdeal Cert.KernelIdeal.Gen Cert.KernelIdeal.Carry Idealize.ShloMosaic Idealize.ShloMosaic.TcCoe
open Idealize.ShloMosaic.ValueIdx Idealize.ShloMosaic.StableHlo Idealize.SL.Sem Cert.Gcn Cert.Lib.RowOps

variable (m : (ℓ : Loc nD τ sig) → Buf (Elt Ideal) ℓ) (ρ : Dev nD → PrngReg) (c : Dev nD)

/-! ## Collecting stretch 1 and layer 2's region -/

set_option maxHeartbeats 4000000 in
/-- The rows collected after layer 1. -/
theorem stage1 (n : Fin 50000) (q : Fin 256) :
    (W5 m ρ c (Proc.devRef .tc main_v28) : S50000x256.Idx → EReal) (ix2 n q) = collect (lands m c) (g m c) (rc (a0 m c)) (rc (a2 m c)) (d m c) n q := by
  show StableHlo.after hostOps1 (W4 m ρ c) (Proc.devRef .tc main_v28) (ix2 n q) = _
  after_results
  rw [carry_v3_4 m ρ c, carry_v6_4 m ρ c, src3, dst3, hd1_eq]
  have eS : scatter_S50000x256_S850000x1_S850000x256_1_0_0_1 = rowScatterDims 50000 850000 256 scatter_S50000x256_S850000x1_S850000x256_1_0_0_1_wf := rfl
  have eG : gather_S50000x256_S850000x1_S850000x256_1_0_n_n_0_1_1256 = rowGatherDims 50000 850000 256 gather_S50000x256_S850000x1_S850000x256_1_0_n_n_0_1_1256_wf := rfl
  rw [scatterAdd_ideal, eS, eG, idxS_eq, idxG_eq]
  refine (collect_stage_apply (N := 50000) (E := 850000) (C := 256) (by decide) gather_S50000x256_S850000x1_S850000x256_1_0_n_n_0_1_1256_wf scatter_S50000x256_S850000x1_S850000x256_1_0_0_1_wf _
    (fun i => Ideal.ofBits_zero_f32) _ _ _ _ n q).trans ?_
  rw [collect]
  show agg _ (fun e q => scaled (rc (a0 m c)) (rc (a2 m c)) (col (W3 m ρ c (Proc.devRef .tc main_v16) : S50000x1.Idx → EReal)) (g m c e) q) n q = _
  rw [col_dcol]
  try (with_reducible rfl)

theorem rc_stage1 : rc (W5 m ρ c (Proc.devRef .tc main_v28) : S50000x256.Idx → EReal) = collect (lands m c) (g m c) (rc (a0 m c)) (rc (a2 m c)) (d m c) :=
  funext fun n => funext fun q => stage1 m ρ c n q

set_option maxHeartbeats 4000000 in
/-- The bias row of layer 2: the bias vector recast as one row. -/
theorem row_brow1 : row (W5 m ρ c (Proc.devRef .tc main_v29) : S1x256.Idx → EReal) = fun k => a3 m c (ix1 k) := by
  funext k
  show StableHlo.after hostOps1 (W4 m ρ c) (Proc.devRef .tc main_v29) (ix2 (0 : Fin 1) k) = _
  after_results
  rw [carry_arg3_4 m ρ c]
  exact shapeCast_a_1a_apply (a3 m c) shapeCasts_S256_S1x256 (0 : Fin 1) k

/-- Layer 2's output array: its whole-array form of the collected rows, the factor column, the bias row and the weights. -/
theorem hd2_eq : (W6 m ρ c (Proc.devRef .tc main_v30) : S50000x128.Idx → EReal)
    = midForm (W5 m ρ c (Proc.devRef .tc main_v28) : S50000x256.Idx → EReal)
        (W3 m ρ c (Proc.devRef .tc main_v16) : S50000x1.Idx → EReal)
        (W5 m ρ c (Proc.devRef .tc main_v29) : S1x256.Idx → EReal) (a4 m c) := by
  refine (W6_arr m ρ c 4).trans ((Cert.KernelIdeal.Layer1.final (V5 m ρ) c).trans ?_)
  have e1 := carry_v16_5 m ρ c
  have e3 := carry_arg4_5 m ρ c
  show midForm _ (W5 m ρ c (Proc.devRef .tc main_v16) : S50000x1.Idx → EReal) _
      (W5 m ρ c (Proc.devRef .tc main_arg4) : S256x128.Idx → EReal) = _
  rw [e1, e3]

end Cert.KernelIdeal.Stages

end
-- ==== Proof.Layer2.lean ====
/-
  THE THIRD LAYER ON THE DEVICE: what its output array holds after the run, as one function of the arrays the
  region finds. The grid has 25 points; point `t` reads rows `2000 t … 2000 t + 1999` of the collected rows `s` and of
  the node-factor column `d`, the whole bias row `b` and the whole weight matrix `W`, and writes the same rows of the
  output: entry `(n, q)` is `(∑ k, max (d n · s (n, k) + b k) 0 · W (k, q)) · d n`. The 25 blocks of 2000 rows tile
  the 50000 rows, so the whole array ends at that function.
-/
import proofs.«107906_j18640158064951_2_alg».proof.Proof.Gen.KernelIdeal.Frame
import proofs.«107906_j18640158064951_2_alg».proof.Proof.LibMatOps
import proofs.«107906_j18640158064951_2_alg».proof.Proof.LibLayerForms
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD)

/-- The arrays the region reads, as it finds them: the collected rows, the factor column, the bias row, the weights. -/
abbrev sArr : S50000x128.Idx → EReal := V c main_v41
abbrev dArr : S50000x1.Idx → EReal := V c main_v16
abbrev bArr : S1x128.Idx → EReal := V c main_v42
abbrev wArr : S128x64.Idx → EReal := V c main_arg6

theorem hz : (![0, 0] : Fin 2 → Nat) = fun _ => 0 := funext fun a => by fin_cases a <;> rfl

/-- The body's stored value at row `p`, column `q` of the block, from the blocks it loaded. -/
theorem payload_apply (v0 : Vec Ideal S2000x1 .f32) (v2 : Vec Ideal S2000x128 .f32) (v6 : Vec Ideal S1x128 .f32)
    (v13 : Vec Ideal S128x64 .f32) (v16 : Vec Ideal S2000x1 .f32) (p : Fin 2000) (q : Fin 64) :
    k2_pay1 (F := Ideal) v0 v2 v6 v13 v16 (ix2 p q)
      = (∑ k : Fin 128, max (v0 (ix2 p (0 : Fin 1)) * v2 (ix2 p k) + v6 (ix2 (0 : Fin 1) k)) 0 * v13 (ix2 k q))
          * v16 (ix2 p (0 : Fin 1)) := by
  unfold k2_pay1
  rw [truncf_apply, mulf_apply]
  congr 1
  · refine (Cert.MatOps.matmul_plain_apply (M := 2000) (K := 128) (C := 64) dot_S2000x128_S128x64_S2000x64_1_0_0_1_n_n.wf none _ _ p q).trans ?_
    refine Finset.sum_congr rfl fun k _ => ?_
    congr 1
    rw [truncf_apply, maximumf_apply, addf_apply, mulf_apply, Cert.MatOps.broadcastTo_a1_ab_apply,
      broadcastTo_1b_ab_apply, shapeCast_self, shapeCast_self, shapeCast_self]
    show max _ (Ideal.ofBits .f32 0x00000000#32) = _
    rw [Ideal.ofBits_zero_f32]
  · rw [Cert.MatOps.broadcastTo_a1_ab_apply, shapeCast_self]

/-- How the five windows' block indices move with the point: the row blocks with the point, the rest fixed. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

set_option maxHeartbeats 1600000 in
/-- WHAT POINT `t` WRITES BACK is block `t` of the layer's form of the arrays as the region finds them. -/
theorem flushed_eq (t : Fin cfg2.N) :
    (dat2 V c).flushed 4 t = ((cfg2.win 4).blk t).view.read (Elt Ideal)
      (Cert.Gcn.midForm (sArr V c) (dArr V c) (bArr V c) (wArr V c)) := by
  show (cfg2.win 4).cut (grid2.coords t) ((dat2 V c).after 4 t) = _
  rw [after2_4]
  unfold out2_4
  rw [View.canon_unit_zero hz]
  simp only [View.ld_unit_zero (S := S2000x1) hz, View.ld_unit_zero (S := S2000x128) hz, View.ld_unit_zero (S := S1x128) hz,
    View.ld_unit_zero (S := S128x64) hz]
  obtain ⟨e0, e1, e2, e3, e4, e5, e6, e7, e8, e9⟩ := idx_facts t
  funext j
  obtain ⟨p, q, rfl⟩ : ∃ (p : Fin 2000) (q : Fin 64), j = ix2 p q := ⟨j 0, j 1, eq_ix2 j⟩
  refine (payload_apply (iblk2 V c 1 t) (iblk2 V c 0 t) (iblk2 V c 2 t) (iblk2 V c 3 t) (iblk2 V c 1 t) p q).trans ?_
  have hp : p.val < 2000 := p.isLt
  have hq : q.val < 64 := q.isLt
  have ht : t.val < 25 := lt_of_lt_of_eq t.isLt N_2
  have ho : ((cfg2.win 4).blk t).view.emb (ix2 p q) = ix2 (⟨t.val * 2000 + p.val, by omega⟩ : Fin 50000) q := by
    funext a; apply Fin.ext
    match a with
    | ⟨0, _⟩ => show win2_4.index t (0 : Fin 2) * 2000 + 1 * p.val = t.val * 2000 + p.val; omega
    | ⟨1, _⟩ => show win2_4.index t (1 : Fin 2) * 64 + 1 * q.val = q.val; omega
  have h0 : ∀ k : Fin 128, ((cfg2.win 0).blk t).view.emb (ix2 p k) = ix2 (⟨t.val * 2000 + p.val, by omega⟩ : Fin 50000) k := by
    intro k; funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  have h1 : ((cfg2.win 1).blk t).view.emb (ix2 p (0 : Fin 1)) = ix2 (⟨t.val * 2000 + p.val, by omega⟩ : Fin 50000) (0 : Fin 1) := by
    funext a; apply Fin.ext
    match a with
    | ⟨0, _⟩ => show win2_1.index t (0 : Fin 2) * 2000 + 1 * p.val = t.val * 2000 + p.val; omega
    | ⟨1, _⟩ => show win2_1.index t (1 : Fin 2) * 1 + 1 * 0 = 0; omega
  have h2 : ∀ k : Fin 128, ((cfg2.win 2).blk t).view.emb (ix2 (0 : Fin 1) k) = ix2 (0 : Fin 1) k := by
    intro k; funext a; apply Fin.ext
    match a with
    | ⟨0, _⟩ => show win2_2.index t (0 : Fin 2) * 1 + 1 * 0 = 0; omega
    | ⟨1, _⟩ => show win2_2.index t (1 : Fin 2) * 128 + 1 * k.val = k.val; omega
  have h3 : ∀ k : Fin 128, ((cfg2.win 3).blk t).view.emb (ix2 k q) = ix2 k q := by
    intro k; funext a; apply Fin.ext
    match a with
    | ⟨0, _⟩ => show win2_3.index t (0 : Fin 2) * 128 + 1 * k.val = k.val; omega
    | ⟨1, _⟩ => show win2_3.index t (1 : Fin 2) * 64 + 1 * q.val = q.val; omega
  show (∑ k : Fin 128, max (dArr V c (((cfg2.win 1).blk t).view.emb (ix2 p (0 : Fin 1)))
        * sArr V c (((cfg2.win 0).blk t).view.emb (ix2 p k))
        + bArr V c (((cfg2.win 2).blk t).view.emb (ix2 (0 : Fin 1) k))) 0
        * wArr V c (((cfg2.win 3).blk t).view.emb (ix2 k q)))
      * dArr V c (((cfg2.win 1).blk t).view.emb (ix2 p (0 : Fin 1)))
    = Cert.Gcn.midForm (sArr V c) (dArr V c) (bArr V c) (wArr V c) (((cfg2.win 4).blk t).view.emb (ix2 p q))
  rw [ho, Cert.Gcn.midForm_apply, h1]
  simp only [h0, h2, h3]

/-- An index of the output array is in point `t`'s block iff each coordinate is in the block's range. -/
theorem mem_blk (t : Fin cfg2.N) (i : S50000x64.Idx) :
    i ∈ ((cfg2.win 4).blk t).view.set ↔ ∀ a : Fin 2, win2_4.index t a * S2000x64.size a ≤ (i a).val
      ∧ (i a).val < win2_4.index t a * S2000x64.size a + S2000x64.size a := by
  show i ∈ ((View.whole main_v43).slice (win2_4.rect t)).set ↔ _
  rw [View.set_slice_whole, Rect.mem_set_unit]
  exact Iff.rfl

/-- Every row is in the block of the point `row / 2000`. -/
theorem cover (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 25 := N_2
  let t : Fin cfg2.N := ⟨(i 0).val / 2000, by rw [hN]; omega⟩
  obtain ⟨e0, e1, e2, e3, e4, e5, e6, e7, e8, e9⟩ := idx_facts t
  have htv : t.val = (i 0).val / 2000 := rfl
  refine ⟨t, flush2_4 t, ?_⟩
  rw [mem_blk]
  intro a
  match a with
  | ⟨0, _⟩ =>
    show win2_4.index t (0 : Fin 2) * 2000 ≤ (i 0).val ∧ (i 0).val < win2_4.index t (0 : Fin 2) * 2000 + 2000
    omega
  | ⟨1, _⟩ =>
    show win2_4.index t (1 : Fin 2) * 64 ≤ (i 1).val ∧ (i 1).val < win2_4.index t (1 : Fin 2) * 64 + 64
    omega

/-- THE OUTPUT ARRAY after the region: the layer's form of the arrays the region found. -/
theorem final : (dat2 V c).arrAt 4 cfg2.N = Cert.Gcn.midForm (sArr V c) (dArr V c) (bArr V c) (wArr V c) :=
  (dat2 V c).arrAt_eq_of_cover 4 _ (fun t _ => flushed_eq V c t) cover

end Cert.KernelIdeal.Layer2

end
-- ==== Proof.Stage2.lean ====
/-
  THE SECOND COLLECTING STRETCH AND THE THIRD LAYER'S REGION of the device program.
-/
import proofs.«107906_j18640158064951_2_alg».proof.Proof.Stage1
import proofs.«107906_j18640158064951_2_alg».proof.Proof.Layer2
import Idealize.ShloMosaic.Lib.ValueLayout
import Idealize.ShloMosaic.Lib.StableHlo.Run

set_option maxRecDepth 16384

noncomputable section

open scoped BigOperators

namespace Cert.KernelIdeal.Stages

open Cert.KernelIdeal Cert.KernelIdeal.Gen Cert.KernelIdeal.Carry Idealize.ShloMosaic Idealize.ShloMosaic.TcCoe
open Idealize.ShloMosaic.ValueIdx Idealize.ShloMosaic.StableHlo Idealize.SL.Sem Cert.Gcn Cert.Lib.RowOps

variable (m : (ℓ : Loc nD τ sig) → Buf (Elt Ideal) ℓ) (ρ : Dev nD → PrngReg) (c : Dev nD)

/-! ## Collecting stretch 2 and layer 3's region -/

set_option maxHeartbeats 4000000 in
/-- The rows collected after layer 2. -/
theorem stage2 (n : Fin 50000) (q : Fin 128) :
    (W7 m ρ c (Proc.devRef .tc main_v41) : S50000x128.Idx → EReal) (ix2 n q) = collect (lands m c) (g m c) (act (collect (lands m c) (g m c) (rc (a0 m c)) (rc (a2 m c)) (d m c)) (d m c) (fun k => a3 m c (ix1 k))) (rc (a4 m c)) (d m c) n q := by
  show StableHlo.after hostOps2 (W6 m ρ c) (Proc.devRef .tc main_v41) (ix2 n q) = _
  after_results
  rw [carry_v3_6 m ρ c, carry_v6_6 m ρ c, src3, dst3, hd2_eq]
  have eS : scatter_S50000x128_S850000x1_S850000x128_1_0_0_1 = rowScatterDims 50000 850000 128 scatter_S50000x128_S850000x1_S850000x128_1_0_0_1_wf := rfl
  have eG : gather_S50000x128_S850000x1_S850000x128_1_0_n_n_0_1_1128 = rowGatherDims 50000 850000 128 gather_S50000x128_S850000x1_S850000x128_1_0_n_n_0_1_1128_wf := rfl
  rw [scatterAdd_ideal, eS, eG, idxS_eq, idxG_eq]
  refine (collect_stage_apply (N := 50000) (E := 850000) (C := 128) (by decide) gather_S50000x128_S850000x1_S850000x128_1_0_n_n_0_1_1128_wf scatter_S50000x128_S850000x1_S850000x128_1_0_0_1_wf _
    (fun i => Ideal.ofBits_zero_f32) _ _ _ _ n q).trans ?_
  rw [collect]
  show agg _ (fun e q => scaled (act (rc (W5 m ρ c (Proc.devRef .tc main_v28) : S50000x256.Idx → EReal))
      (col (W3 m ρ c (Proc.devRef .tc main_v16) : S50000x1.Idx → EReal))
      (row (W5 m ρ c (Proc.devRef .tc main_v29) : S1x256.Idx → EReal)))
      (rc (a4 m c)) (col (W3 m ρ c (Proc.devRef .tc main_v16) : S50000x1.Idx → EReal)) (g m c e) q) n q = _
  rw [col_dcol, rc_stage1, row_brow1]
  try (with_reducible rfl)

theorem rc_stage2 : rc (W7 m ρ c (Proc.devRef .tc main_v41) : S50000x128.Idx → EReal) = collect (lands m c) (g m c) (act (collect (lands m c) (g m c) (rc (a0 m c)) (rc (a2 m c)) (d m c)) (d m c) (fun k => a3 m c (ix1 k))) (rc (a4 m c)) (d m c) :=
  funext fun n => funext fun q => stage2 m ρ c n q

set_option maxHeartbeats 4000000 in
/-- The bias row of layer 3: the bias vector recast as one row. -/
theorem row_brow2 : row (W7 m ρ c (Proc.devRef .tc main_v42) : S1x128.Idx → EReal) = fun k => a5 m c (ix1 k) := by
  funext k
  show StableHlo.after hostOps2 (W6 m ρ c) (Proc.devRef .tc main_v42) (ix2 (0 : Fin 1) k) = _
  after_results
  rw [carry_arg5_6 m ρ c]
  exact shapeCast_a_1a_apply (a5 m c) shapeCasts_S128_S1x128 (0 : Fin 1) k

/-- Layer 3's output array: its whole-array form of the collected rows, the factor column, the bias row and the weights. -/
theorem hd3_eq : (W8 m ρ c (Proc.devRef .tc main_v43) : S50000x64.Idx → EReal)
    = midForm (W7 m ρ c (Proc.devRef .tc main_v41) : S50000x128.Idx → EReal)
        (W3 m ρ c (Proc.devRef .tc main_v16) : S50000x1.Idx → EReal)
        (W7 m ρ c (Proc.devRef .tc main_v42) : S1x128.Idx → EReal) (a6 m c) := by
  refine (W8_arr m ρ c 4).trans ((Cert.KernelIdeal.Layer2.final (V7 m ρ) c).trans ?_)
  have e1 := carry_v16_7 m ρ c
  have e3 := carry_arg6_7 m ρ c
  show midForm _ (W7 m ρ c (Proc.devRef .tc main_v16) : S50000x1.Idx → EReal) _
      (W7 m ρ c (Proc.devRef .tc main_arg6) : S128x64.Idx → EReal) = _
  rw [e1, e3]

end Cert.KernelIdeal.Stages

end
-- ==== Proof.Layer3.lean ====
/-
  THE FOURTH LAYER ON THE DEVICE: what its output array holds after the run, as one function of the arrays the
  region finds. The grid has 25 points; point `t` reads rows `2000 t … 2000 t + 1999` of the collected rows `s` and of
  the node-factor column `d`, the whole bias row `b` and the whole weight matrix `W`, and writes the same rows of the
  output: entry `(n, q)` is `(∑ k, max (d n · s (n, k) + b k) 0 · W (k, q)) · d n`. The 25 blocks of 2000 rows tile
  the 50000 rows, so the whole array ends at that function.
-/
import proofs.«107906_j18640158064951_2_alg».proof.Proof.Gen.KernelIdeal.Frame
import proofs.«107906_j18640158064951_2_alg».proof.Proof.LibMatOps
import proofs.«107906_j18640158064951_2_alg».proof.Proof.LibLayerForms
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Layer3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD)

/-- The arrays the region reads, as it finds them: the collected rows, the factor column, the bias row, the weights. -/
abbrev sArr : S50000x64.Idx → EReal := V c main_v54
abbrev dArr : S50000x1.Idx → EReal := V c main_v16
abbrev bArr : S1x64.Idx → EReal := V c main_v55
abbrev wArr : S64x1.Idx → EReal := V c main_arg8

theorem hz : (![0, 0] : Fin 2 → Nat) = fun _ => 0 := funext fun a => by fin_cases a <;> rfl

/-- The body's stored value at row `p`, column `q` of the block, from the blocks it loaded. -/
theorem payload_apply (v0 : Vec Ideal S2000x1 .f32) (v2 : Vec Ideal S2000x64 .f32) (v6 : Vec Ideal S1x64 .f32)
    (v13 : Vec Ideal S64x1 .f32) (v16 : Vec Ideal S2000x1 .f32) (p : Fin 2000) (q : Fin 1) :
    k3_pay1 (F := Ideal) v0 v2 v6 v13 v16 (ix2 p q)
      = (∑ k : Fin 64, max (v0 (ix2 p (0 : Fin 1)) * v2 (ix2 p k) + v6 (ix2 (0 : Fin 1) k)) 0 * v13 (ix2 k q))
          * v16 (ix2 p (0 : Fin 1)) := by
  unfold k3_pay1
  rw [truncf_apply, mulf_apply]
  congr 1
  · refine (Cert.MatOps.matmul_plain_apply (M := 2000) (K := 64) (C := 1) dot_S2000x64_S64x1_S2000x1_1_0_0_1_n_n.wf none _ _ p q).trans ?_
    refine Finset.sum_congr rfl fun k _ => ?_
    congr 1
    rw [truncf_apply, maximumf_apply, addf_apply, mulf_apply, Cert.MatOps.broadcastTo_a1_ab_apply,
      broadcastTo_1b_ab_apply, shapeCast_self, shapeCast_self, shapeCast_self]
    show max _ (Ideal.ofBits .f32 0x00000000#32) = _
    rw [Ideal.ofBits_zero_f32]
  · rw [shapeCast_self, Subsingleton.elim q (0 : Fin 1)]

/-- How the five windows' block indices move with the point: the row blocks with the point, the rest fixed. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 1600000 in
/-- WHAT POINT `t` WRITES BACK is block `t` of the layer's form of the arrays as the region finds them. -/
theorem flushed_eq (t : Fin cfg3.N) :
    (dat3 V c).flushed 4 t = ((cfg3.win 4).blk t).view.read (Elt Ideal)
      (Cert.Gcn.midForm (sArr V c) (dArr V c) (bArr V c) (wArr V c)) := by
  show (cfg3.win 4).cut (grid3.coords t) ((dat3 V c).after 4 t) = _
  rw [after3_4]
  unfold out3_4
  rw [View.canon_unit_zero hz]
  simp only [View.ld_unit_zero (S := S2000x1) hz, View.ld_unit_zero (S := S2000x64) hz, View.ld_unit_zero (S := S1x64) hz,
    View.ld_unit_zero (S := S64x1) hz]
  obtain ⟨e0, e1, e2, e3, e4, e5, e6, e7, e8, e9⟩ := idx_facts t
  funext j
  obtain ⟨p, q, rfl⟩ : ∃ (p : Fin 2000) (q : Fin 1), j = ix2 p q := ⟨j 0, j 1, eq_ix2 j⟩
  refine (payload_apply (iblk3 V c 1 t) (iblk3 V c 0 t) (iblk3 V c 2 t) (iblk3 V c 3 t) (iblk3 V c 1 t) p q).trans ?_
  have hp : p.val < 2000 := p.isLt
  have hq : q.val < 1 := q.isLt
  have ht : t.val < 25 := lt_of_lt_of_eq t.isLt N_3
  have ho : ((cfg3.win 4).blk t).view.emb (ix2 p q) = ix2 (⟨t.val * 2000 + p.val, by omega⟩ : Fin 50000) q := by
    funext a; apply Fin.ext
    match a with
    | ⟨0, _⟩ => show win3_4.index t (0 : Fin 2) * 2000 + 1 * p.val = t.val * 2000 + p.val; omega
    | ⟨1, _⟩ => show win3_4.index t (1 : Fin 2) * 1 + 1 * q.val = q.val; omega
  have h0 : ∀ k : Fin 64, ((cfg3.win 0).blk t).view.emb (ix2 p k) = ix2 (⟨t.val * 2000 + p.val, by omega⟩ : Fin 50000) k := by
    intro k; funext a; apply Fin.ext
    match a with
    | ⟨0, _⟩ => show win3_0.index t (0 : Fin 2) * 2000 + 1 * p.val = t.val * 2000 + p.val; omega
    | ⟨1, _⟩ => show win3_0.index t (1 : Fin 2) * 64 + 1 * k.val = k.val; omega
  have h1 : ((cfg3.win 1).blk t).view.emb (ix2 p (0 : Fin 1)) = ix2 (⟨t.val * 2000 + p.val, by omega⟩ : Fin 50000) (0 : Fin 1) := by
    funext a; apply Fin.ext
    match a with
    | ⟨0, _⟩ => show win3_1.index t (0 : Fin 2) * 2000 + 1 * p.val = t.val * 2000 + p.val; omega
    | ⟨1, _⟩ => show win3_1.index t (1 : Fin 2) * 1 + 1 * 0 = 0; omega
  have h2 : ∀ k : Fin 64, ((cfg3.win 2).blk t).view.emb (ix2 (0 : Fin 1) k) = ix2 (0 : Fin 1) k := by
    intro k; funext a; apply Fin.ext
    match a with
    | ⟨0, _⟩ => show win3_2.index t (0 : Fin 2) * 1 + 1 * 0 = 0; omega
    | ⟨1, _⟩ => show win3_2.index t (1 : Fin 2) * 64 + 1 * k.val = k.val; omega
  have h3 : ∀ k : Fin 64, ((cfg3.win 3).blk t).view.emb (ix2 k q) = ix2 k q := by
    intro k; funext a; apply Fin.ext
    match a with
    | ⟨0, _⟩ => show win3_3.index t (0 : Fin 2) * 64 + 1 * k.val = k.val; omega
    | ⟨1, _⟩ => show win3_3.index t (1 : Fin 2) * 1 + 1 * q.val = q.val; omega
  show (∑ k : Fin 64, max (dArr V c (((cfg3.win 1).blk t).view.emb (ix2 p (0 : Fin 1)))
        * sArr V c (((cfg3.win 0).blk t).view.emb (ix2 p k))
        + bArr V c (((cfg3.win 2).blk t).view.emb (ix2 (0 : Fin 1) k))) 0
        * wArr V c (((cfg3.win 3).blk t).view.emb (ix2 k q)))
      * dArr V c (((cfg3.win 1).blk t).view.emb (ix2 p (0 : Fin 1)))
    = Cert.Gcn.midForm (sArr V c) (dArr V c) (bArr V c) (wArr V c) (((cfg3.win 4).blk t).view.emb (ix2 p q))
  rw [ho, Cert.Gcn.midForm_apply, h1]
  simp only [h0, h2, h3]

/-- An index of the output array is in point `t`'s block iff each coordinate is in the block's range. -/
theorem mem_blk (t : Fin cfg3.N) (i : S50000x1.Idx) :
    i ∈ ((cfg3.win 4).blk t).view.set ↔ ∀ a : Fin 2, win3_4.index t a * S2000x1.size a ≤ (i a).val
      ∧ (i a).val < win3_4.index t a * S2000x1.size a + S2000x1.size a := by
  show i ∈ ((View.whole main_v56).slice (win3_4.rect t)).set ↔ _
  rw [View.set_slice_whole, Rect.mem_set_unit]
  exact Iff.rfl

/-- Every row is in the block of the point `row / 2000`. -/
theorem cover (i : S50000x1.Idx) : ∃ t : Fin cfg3.N, (cfg3.win 4).flush t = true ∧ i ∈ ((cfg3.win 4).blk t).view.set := by
  have hi0 : (i 0).val < 50000 := (i 0).isLt
  have hi1 : (i 1).val < 1 := (i 1).isLt
  have hN : cfg3.N = 25 := N_3
  let t : Fin cfg3.N := ⟨(i 0).val / 2000, by rw [hN]; omega⟩
  obtain ⟨e0, e1, e2, e3, e4, e5, e6, e7, e8, e9⟩ := idx_facts t
  have htv : t.val = (i 0).val / 2000 := rfl
  refine ⟨t, flush3_4 t, ?_⟩
  rw [mem_blk]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 1 ≤ (i 1).val ∧ (i 1).val < win3_4.index t (1 : Fin 2) * 1 + 1
    omega

/-- THE OUTPUT ARRAY after the region: the layer's form of the arrays the region found. -/
theorem final : (dat3 V c).arrAt 4 cfg3.N = Cert.Gcn.midForm (sArr V c) (dArr V c) (bArr V c) (wArr V c) :=
  (dat3 V c).arrAt_eq_of_cover 4 _ (fun t _ => flushed_eq V c t) cover

end Cert.KernelIdeal.Layer3

end
-- ==== Proof.Stage3.lean ====
/-
  THE THIRD COLLECTING STRETCH AND THE FOURTH LAYER'S REGION of the device program.
-/
import proofs.«107906_j18640158064951_2_alg».proof.Proof.Stage2
import proofs.«107906_j18640158064951_2_alg».proof.Proof.Layer3
import Idealize.ShloMosaic.Lib.ValueLayout
import Idealize.ShloMosaic.Lib.StableHlo.Run

set_option maxRecDepth 16384

noncomputable section

open scoped BigOperators

namespace Cert.KernelIdeal.Stages

open Cert.KernelIdeal Cert.KernelIdeal.Gen Cert.KernelIdeal.Carry Idealize.ShloMosaic Idealize.ShloMosaic.TcCoe
open Idealize.ShloMosaic.ValueIdx Idealize.ShloMosaic.StableHlo Idealize.SL.Sem Cert.Gcn Cert.Lib.RowOps

variable (m : (ℓ : Loc nD τ sig) → Buf (Elt Ideal) ℓ) (ρ : Dev nD → PrngReg) (c : Dev nD)

/-! ## Collecting stretch 3 and layer 4's region -/

set_option maxHeartbeats 4000000 in
/-- The rows collected after layer 3. -/
theorem stage3 (n : Fin 50000) (q : Fin 64) :
    (W9 m ρ c (Proc.devRef .tc main_v54) : S50000x64.Idx → EReal) (ix2 n q) = collect (lands m c) (g m c) (act (collect (lands m c) (g m c) (act (collect (lands m c) (g m c) (rc (a0 m c)) (rc (a2 m c)) (d m c)) (d m c) (fun k => a3 m c (ix1 k))) (rc (a4 m c)) (d m c)) (d m c) (fun k => a5 m c (ix1 k))) (rc (a6 m c)) (d m c) n q := by
  show StableHlo.after hostOps3 (W8 m ρ c) (Proc.devRef .tc main_v54) (ix2 n q) = _
  after_results
  rw [carry_v3_8 m ρ c, carry_v6_8 m ρ c, src3, dst3, hd3_eq]
  have eS : scatter_S50000x64_S850000x1_S850000x64_1_0_0_1 = rowScatterDims 50000 850000 64 scatter_S50000x64_S850000x1_S850000x64_1_0_0_1_wf := rfl
  have eG : gather_S50000x64_S850000x1_S850000x64_1_0_n_n_0_1_164 = rowGatherDims 50000 850000 64 gather_S50000x64_S850000x1_S850000x64_1_0_n_n_0_1_164_wf := rfl
  rw [scatterAdd_ideal, eS, eG, idxS_eq, idxG_eq]
  refine (collect_stage_apply (N := 50000) (E := 850000) (C := 64) (by decide) gather_S50000x64_S850000x1_S850000x64_1_0_n_n_0_1_164_wf scatter_S50000x64_S850000x1_S850000x64_1_0_0_1_wf _
    (fun i => Ideal.ofBits_zero_f32) _ _ _ _ n q).trans ?_
  rw [collect]
  show agg _ (fun e q => scaled (act (rc (W7 m ρ c (Proc.devRef .tc main_v41) : S50000x128.Idx → EReal))
      (col (W3 m ρ c (Proc.devRef .tc main_v16) : S50000x1.Idx → EReal))
      (row (W7 m ρ c (Proc.devRef .tc main_v42) : S1x128.Idx → EReal)))
      (rc (a6 m c)) (col (W3 m ρ c (Proc.devRef .tc main_v16) : S50000x1.Idx → EReal)) (g m c e) q) n q = _
  rw [col_dcol, rc_stage2, row_brow2]
  try (with_reducible rfl)

theorem rc_stage3 : rc (W9 m ρ c (Proc.devRef .tc main_v54) : S50000x64.Idx → EReal) = collect (lands m c) (g m c) (act (collect (lands m c) (g m c) (act (collect (lands m c) (g m c) (rc (a0 m c)) (rc (a2 m c)) (d m c)) (d m c) (fun k => a3 m c (ix1 k))) (rc (a4 m c)) (d m c)) (d m c) (fun k => a5 m c (ix1 k))) (rc (a6 m c)) (d m c) :=
  funext fun n => funext fun q => stage3 m ρ c n q

set_option maxHeartbeats 4000000 in
/-- The bias row of layer 4: the bias vector recast as one row. -/
theorem row_brow3 : row (W9 m ρ c (Proc.devRef .tc main_v55) : S1x64.Idx → EReal) = fun k => a7 m c (ix1 k) := by
  funext k
  show StableHlo.after hostOps3 (W8 m ρ c) (Proc.devRef .tc main_v55) (ix2 (0 : Fin 1) k) = _
  after_results
  rw [carry_arg7_8 m ρ c]
  exact shapeCast_a_1a_apply (a7 m c) shapeCasts_S64_S1x64 (0 : Fin 1) k

/-- Layer 4's output array: its whole-array form of the collected rows, the factor column, the bias row and the weights. -/
theorem hd4_eq : (W10 m ρ c (Proc.devRef .tc main_v56) : S50000x1.Idx → EReal)
    = midForm (W9 m ρ c (Proc.devRef .tc main_v54) : S50000x64.Idx → EReal)
        (W3 m ρ c (Proc.devRef .tc main_v16) : S50000x1.Idx → EReal)
        (W9 m ρ c (Proc.devRef .tc main_v55) : S1x64.Idx → EReal) (a8 m c) := by
  refine (W10_arr m ρ c 4).trans ((Cert.KernelIdeal.Layer3.final (V9 m ρ) c).trans ?_)
  have e1 := carry_v16_9 m ρ c
  have e3 := carry_arg8_9 m ρ c
  show midForm _ (W9 m ρ c (Proc.devRef .tc main_v16) : S50000x1.Idx → EReal) _
      (W9 m ρ c (Proc.devRef .tc main_arg8) : S64x1.Idx → EReal) = _
  rw [e1, e3]

end Cert.KernelIdeal.Stages

end
-- ==== Proof.Stage4.lean ====
/-
  THE LAST STRETCH of the device program: the rows collected after layer 4, scaled by the node factor, plus the last bias.
-/
import proofs.«107906_j18640158064951_2_alg».proof.Proof.Stage3
import Idealize.ShloMosaic.Lib.ValueLayout
import Idealize.ShloMosaic.Lib.StableHlo.Run

set_option maxRecDepth 16384

noncomputable section

open scoped BigOperators

namespace Cert.KernelIdeal.Stages

open Cert.KernelIdeal Cert.KernelIdeal.Gen Cert.KernelIdeal.Carry Idealize.ShloMosaic Idealize.ShloMosaic.TcCoe
open Idealize.ShloMosaic.ValueIdx Idealize.ShloMosaic.StableHlo Idealize.SL.Sem Cert.Gcn Cert.Lib.RowOps

variable (m : (ℓ : Loc nD τ sig) → Buf (Elt Ideal) ℓ) (ρ : Dev nD → PrngReg) (c : Dev nD)

/-! ## The last stretch -/

set_option maxHeartbeats 4000000 in
/-- THE DEVICE PROGRAM'S RESULT at `(n, q)`: the last collected column scaled by the node factor, plus the last bias. -/
theorem result_apply (n : Fin 50000) (q : Fin 1) :
    (W11 m ρ c (Proc.devRef .tc main_v71) : S50000x1.Idx → EReal) (ix2 n q)
      = d m c n * collect (lands m c) (g m c) (act (collect (lands m c) (g m c) (act (collect (lands m c) (g m c) (act (collect (lands m c) (g m c) (rc (a0 m c)) (rc (a2 m c)) (d m c)) (d m c) (fun k => a3 m c (ix1 k))) (rc (a4 m c)) (d m c)) (d m c) (fun k => a5 m c (ix1 k))) (rc (a6 m c)) (d m c)) (d m c) (fun k => a7 m c (ix1 k))) (rc (a8 m c)) (d m c) n q + a9 m c (ix1 q) := by
  have hq : q = 0 := Subsingleton.elim _ _
  subst hq
  have eS : scatter_S50000x1_S850000x1_S850000x1_1_0_0_1 = rowScatterDims 50000 850000 1 scatter_S50000x1_S850000x1_S850000x1_1_0_0_1_wf := rfl
  have eG : gather_S50000x1_S850000x1_S850000x1_1_0_n_n_0_1_11 = rowGatherDims 50000 850000 1 gather_S50000x1_S850000x1_S850000x1_1_0_n_n_0_1_11_wf := rfl
  show StableHlo.after hostOps4 (W10 m ρ c) (Proc.devRef .tc main_v71) (ix2 n (0 : Fin 1)) = _
  after_results
  rw [carry_v3_10 m ρ c, carry_v6_10 m ρ c, carry_v16_10 m ρ c, carry_arg9_10 m ρ c, src3, dst3, hd4_eq]
  rw [addf_apply, mulf_apply, scatterAdd_ideal, eS, eG, idxS_eq, idxG_eq]
  refine congrArg₂ (· + ·) (congrArg₂ (· * ·) (congrFun (col_dcol m ρ c) n) ?_) ?_
  · refine (collect_stage_apply (N := 50000) (E := 850000) (C := 1) (by decide) gather_S50000x1_S850000x1_S850000x1_1_0_n_n_0_1_11_wf
      scatter_S50000x1_S850000x1_S850000x1_1_0_0_1_wf _ (fun i => Ideal.ofBits_zero_f32) _ _ _ _ n 0).trans ?_
    rw [collect]
    show agg _ (fun e q => scaled (act (rc (W9 m ρ c (Proc.devRef .tc main_v54) : S50000x64.Idx → EReal))
        (col (W3 m ρ c (Proc.devRef .tc main_v16) : S50000x1.Idx → EReal))
        (row (W9 m ρ c (Proc.devRef .tc main_v55) : S1x64.Idx → EReal)))
        (rc (a8 m c)) (col (W3 m ρ c (Proc.devRef .tc main_v16) : S50000x1.Idx → EReal)) (g m c e) q) n 0 = _
    rw [col_dcol, rc_stage3, row_brow3]
    try (with_reducible rfl)
  · show broadcastInDim S50000x1 ![0, 1] bcast_S1x1_S50000x1_0_1 (shapeCast S1x1 (a9 m c) shapeCasts_S1_S1x1) (ix2 n (0 : Fin 1)) = _
    rw [broadcastInDim_apply ![0, 1] bcast_S1x1_S50000x1_0_1 _ (ix2 n (0 : Fin 1)) (ix2 (0 : Fin 1) (0 : Fin 1))
      (fun a => match a with | ⟨0, _⟩ => rfl | ⟨1, _⟩ => rfl)]
    exact shapeCast_a_1a_apply (a9 m c) shapeCasts_S1_S1x1 (0 : Fin 1) (0 : Fin 1)

end Cert.KernelIdeal.Stages

end
-- ==== Proof.RefLayer1.lean ====
/-
  LAYER 1 OF THE PLAIN PROGRAM, read at an index: the dense product of the activation before it with the layer's weights,
  its rows gathered along the edges' source column and multiplied by the edge weights, scattered with addition along the
  destination column into zeros, the bias added — `conv` of Proof/LibGcnLaw.lean; then the clamp at zero.
-/
import proofs.«107906_j18640158064951_2_alg».proof.Proof.RefBasics
import proofs.«107906_j18640158064951_2_alg».proof.Proof.LibConvForms

noncomputable section

open scoped BigOperators

namespace Cert.ReferenceIdeal.Plain

open Cert.ReferenceIdeal Cert.ReferenceIdeal.Gen Cert.ReferenceIdeal.ReadP Idealize.ShloMosaic Idealize.ShloMosaic.ValueIdx
open Cert.Gcn Cert.Lib.RowOps Cert.MatOps Idealize.ShloMosaic.RealEntries

/-- Layer 1 of the plain form, at `(n, q)`. -/
theorem layer1 (x0 : (⟨S50000x1, .f32⟩ : BufTy).Contents (Elt Ideal)) (x1 : (⟨S2x800000, .i32⟩ : BufTy).Contents (Elt Ideal)) (x2 : (⟨S1x256, .f32⟩ : BufTy).Contents (Elt Ideal)) (x3 : (⟨S256, .f32⟩ : BufTy).Contents (Elt Ideal)) (n : Fin 50000) (q : Fin 256) :
    val_main_v47 (F := Ideal) x0 x1 x2 x3 (ix2 n q)
      = conv (landsOf x1) (gOf x1) (rc x0) (rc x2) (fun q => x3 (ix1 q)) (nrmOf x1) n q := by
  have eS : scatter_S50000x256_S850000x1_S850000x256_1_0_0_1 = rowScatterDims 50000 850000 256 scatter_S50000x256_S850000x1_S850000x256_1_0_0_1_wf := rfl
  have eG : gather_S50000x256_S850000x1_S850000x256_1_0_n_n_0_1_1256 = rowGatherDims 50000 850000 256 gather_S50000x256_S850000x1_S850000x256_1_0_n_n_0_1_1256_wf := rfl
  have eD : dot_S50000x1_S1x256_S50000x256_1_0_0_1_n_n = plainDot 50000 1 256 dot_S50000x1_S1x256_S50000x256_1_0_0_1_n_n_wf := rfl
  unfold val_main_v47 val_main_v44 val_main_v41 val_main_v38 val_main_v31
  rw [addf_apply, scatterAdd_ideal, eS, eG, eD, scol2, gcol2]
  exact conv_layer_host_apply (N := 50000) (E := 850000) (K := 1) (C := 256) (by decide) gather_S50000x256_S850000x1_S850000x256_1_0_n_n_0_1_1256_wf scatter_S50000x256_S850000x1_S850000x256_1_0_0_1_wf dot_S50000x1_S1x256_S50000x256_1_0_0_1_n_n_wf
    (val_main_v42 (F := Ideal)) (fun i => Ideal.ofBits_zero_f32) (val_main_v9 (F := Ideal) x1) (val_main_v21 (F := Ideal) x1)
    x0 x2 (val_main_v40 (F := Ideal) x1) (val_main_v46 (F := Ideal) x3) (nrmOf x1) (fun q => x3 (ix1 q))
    (fun e q => by
      rw [val_main_v40_apply, val_main_v39_apply]
      show val_main_v30 (F := Ideal) x1 _ = val_main_v30 (F := Ideal) x1 (ix1 e)
      exact congrArg (val_main_v30 (F := Ideal) x1) (funext fun a => match a with | ⟨0, _⟩ => rfl))
    (fun n q => by
      rw [val_main_v46_apply, val_main_v45_apply]
      exact congrArg x3 (funext fun a => match a with | ⟨0, _⟩ => rfl))
    n q

/-- The clamp at zero after layer 1. -/
theorem relu1 (x0 : (⟨S50000x1, .f32⟩ : BufTy).Contents (Elt Ideal)) (x1 : (⟨S2x800000, .i32⟩ : BufTy).Contents (Elt Ideal)) (x2 : (⟨S1x256, .f32⟩ : BufTy).Contents (Elt Ideal)) (x3 : (⟨S256, .f32⟩ : BufTy).Contents (Elt Ideal)) (n : Fin 50000) (k : Fin 256) :
    val_main_v48 (F := Ideal) x0 x1 x2 x3 (ix2 n k) = max (val_main_v47 (F := Ideal) x0 x1 x2 x3 (ix2 n k)) 0 := by
  rw [val_main_v48_apply]
  show max _ (Ideal.ofBits .f32 0x00000000#32) = _
  rw [Ideal.ofBits_zero_f32]

end Cert.ReferenceIdeal.Plain

end
-- ==== Proof.RefLayer2.lean ====
/-
  LAYER 2 OF THE PLAIN PROGRAM, read at an index: the dense product of the activation before it with the layer's weights,
  its rows gathered along the edges' source column and multiplied by the edge weights, scattered with addition along the
  destination column into zeros, the bias added — `conv` of Proof/LibGcnLaw.lean; then the clamp at zero.
-/
import proofs.«107906_j18640158064951_2_alg».proof.Proof.RefBasics
import proofs.«107906_j18640158064951_2_alg».proof.Proof.LibConvForms

noncomputable section

open scoped BigOperators

namespace Cert.ReferenceIdeal.Plain

open Cert.ReferenceIdeal Cert.ReferenceIdeal.Gen Cert.ReferenceIdeal.ReadP Idealize.ShloMosaic Idealize.ShloMosaic.ValueIdx
open Cert.Gcn Cert.Lib.RowOps Cert.MatOps Idealize.ShloMosaic.RealEntries

/-- Layer 2 of the plain form, at `(n, q)`. -/
theorem layer2 (x0 : (⟨S50000x1, .f32⟩ : BufTy).Contents (Elt Ideal)) (x1 : (⟨S2x800000, .i32⟩ : BufTy).Contents (Elt Ideal)) (x2 : (⟨S1x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (n : Fin 50000) (q : Fin 128) :
    val_main_v65 (F := Ideal) x0 x1 x2 x3 x4 x5 (ix2 n q)
      = conv (landsOf x1) (gOf x1) (rc (val_main_v48 (F := Ideal) x0 x1 x2 x3)) (rc x4) (fun q => x5 (ix1 q)) (nrmOf x1) n q := by
  have eS : scatter_S50000x128_S850000x1_S850000x128_1_0_0_1 = rowScatterDims 50000 850000 128 scatter_S50000x128_S850000x1_S850000x128_1_0_0_1_wf := rfl
  have eG : gather_S50000x128_S850000x1_S850000x128_1_0_n_n_0_1_1128 = rowGatherDims 50000 850000 128 gather_S50000x128_S850000x1_S850000x128_1_0_n_n_0_1_1128_wf := rfl
  have eD : dot_S50000x256_S256x128_S50000x128_1_0_0_1_n_n = plainDot 50000 256 128 dot_S50000x256_S256x128_S50000x128_1_0_0_1_n_n_wf := rfl
  unfold val_main_v65 val_main_v62 val_main_v59 val_main_v56 val_main_v49
  rw [addf_apply, scatterAdd_ideal, eS, eG, eD, scol3, gcol3]
  exact conv_layer_host_apply (N := 50000) (E := 850000) (K := 256) (C := 128) (by decide) gather_S50000x128_S850000x1_S850000x128_1_0_n_n_0_1_1128_wf scatter_S50000x128_S850000x1_S850000x128_1_0_0_1_wf dot_S50000x256_S256x128_S50000x128_1_0_0_1_n_n_wf
    (val_main_v60 (F := Ideal)) (fun i => Ideal.ofBits_zero_f32) (val_main_v9 (F := Ideal) x1) (val_main_v21 (F := Ideal) x1)
    (val_main_v48 (F := Ideal) x0 x1 x2 x3) x4 (val_main_v58 (F := Ideal) x1) (val_main_v64 (F := Ideal) x5) (nrmOf x1) (fun q => x5 (ix1 q))
    (fun e q => by
      rw [val_main_v58_apply, val_main_v57_apply]
      show val_main_v30 (F := Ideal) x1 _ = val_main_v30 (F := Ideal) x1 (ix1 e)
      exact congrArg (val_main_v30 (F := Ideal) x1) (funext fun a => match a with | ⟨0, _⟩ => rfl))
    (fun n q => by
      rw [val_main_v64_apply, val_main_v63_apply]
      exact congrArg x5 (funext fun a => match a with | ⟨0, _⟩ => rfl))
    n q

/-- The clamp at zero after layer 2. -/
theorem relu2 (x0 : (⟨S50000x1, .f32⟩ : BufTy).Contents (Elt Ideal)) (x1 : (⟨S2x800000, .i32⟩ : BufTy).Contents (Elt Ideal)) (x2 : (⟨S1x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (n : Fin 50000) (k : Fin 128) :
    val_main_v66 (F := Ideal) x0 x1 x2 x3 x4 x5 (ix2 n k) = max (val_main_v65 (F := Ideal) x0 x1 x2 x3 x4 x5 (ix2 n k)) 0 := by
  rw [val_main_v66_apply]
  show max _ (Ideal.ofBits .f32 0x00000000#32) = _
  rw [Ideal.ofBits_zero_f32]

end Cert.ReferenceIdeal.Plain

end
-- ==== Proof.RefLayer3.lean ====
/-
  LAYER 3 OF THE PLAIN PROGRAM, read at an index: the dense product of the activation before it with the layer's weights,
  its rows gathered along the edges' source column and multiplied by the edge weights, scattered with addition along the
  destination column into zeros, the bias added — `conv` of Proof/LibGcnLaw.lean; then the clamp at zero.
-/
import proofs.«107906_j18640158064951_2_alg».proof.Proof.RefBasics
import proofs.«107906_j18640158064951_2_alg».proof.Proof.LibConvForms

noncomputable section

open scoped BigOperators

namespace Cert.ReferenceIdeal.Plain

open Cert.ReferenceIdeal Cert.ReferenceIdeal.Gen Cert.ReferenceIdeal.ReadP Idealize.ShloMosaic Idealize.ShloMosaic.ValueIdx
open Cert.Gcn Cert.Lib.RowOps Cert.MatOps Idealize.ShloMosaic.RealEntries

/-- Layer 3 of the plain form, at `(n, q)`. -/
theorem layer3 (x0 : (⟨S50000x1, .f32⟩ : BufTy).Contents (Elt Ideal)) (x1 : (⟨S2x800000, .i32⟩ : BufTy).Contents (Elt Ideal)) (x2 : (⟨S1x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (n : Fin 50000) (q : Fin 64) :
    val_main_v83 (F := Ideal) x0 x1 x2 x3 x4 x5 x6 x7 (ix2 n q)
      = conv (landsOf x1) (gOf x1) (rc (val_main_v66 (F := Ideal) x0 x1 x2 x3 x4 x5)) (rc x6) (fun q => x7 (ix1 q)) (nrmOf x1) n q := by
  have eS : scatter_S50000x64_S850000x1_S850000x64_1_0_0_1 = rowScatterDims 50000 850000 64 scatter_S50000x64_S850000x1_S850000x64_1_0_0_1_wf := rfl
  have eG : gather_S50000x64_S850000x1_S850000x64_1_0_n_n_0_1_164 = rowGatherDims 50000 850000 64 gather_S50000x64_S850000x1_S850000x64_1_0_n_n_0_1_164_wf := rfl
  have eD : dot_S50000x128_S128x64_S50000x64_1_0_0_1_n_n = plainDot 50000 128 64 dot_S50000x128_S128x64_S50000x64_1_0_0_1_n_n_wf := rfl
  unfold val_main_v83 val_main_v80 val_main_v77 val_main_v74 val_main_v67
  rw [addf_apply, scatterAdd_ideal, eS, eG, eD, scol4, gcol4]
  exact conv_layer_host_apply (N := 50000) (E := 850000) (K := 128) (C := 64) (by decide) gather_S50000x64_S850000x1_S850000x64_1_0_n_n_0_1_164_wf scatter_S50000x64_S850000x1_S850000x64_1_0_0_1_wf dot_S50000x128_S128x64_S50000x64_1_0_0_1_n_n_wf
    (val_main_v78 (F := Ideal)) (fun i => Ideal.ofBits_zero_f32) (val_main_v9 (F := Ideal) x1) (val_main_v21 (F := Ideal) x1)
    (val_main_v66 (F := Ideal) x0 x1 x2 x3 x4 x5) x6 (val_main_v76 (F := Ideal) x1) (val_main_v82 (F := Ideal) x7) (nrmOf x1) (fun q => x7 (ix1 q))
    (fun e q => by
      rw [val_main_v76_apply, val_main_v75_apply]
      show val_main_v30 (F := Ideal) x1 _ = val_main_v30 (F := Ideal) x1 (ix1 e)
      exact congrArg (val_main_v30 (F := Ideal) x1) (funext fun a => match a with | ⟨0, _⟩ => rfl))
    (fun n q => by
      rw [val_main_v82_apply, val_main_v81_apply]
      exact congrArg x7 (funext fun a => match a with | ⟨0, _⟩ => rfl))
    n q

/-- The clamp at zero after layer 3. -/
theorem relu3 (x0 : (⟨S50000x1, .f32⟩ : BufTy).Contents (Elt Ideal)) (x1 : (⟨S2x800000, .i32⟩ : BufTy).Contents (Elt Ideal)) (x2 : (⟨S1x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (n : Fin 50000) (k : Fin 64) :
    val_main_v84 (F := Ideal) x0 x1 x2 x3 x4 x5 x6 x7 (ix2 n k) = max (val_main_v83 (F := Ideal) x0 x1 x2 x3 x4 x5 x6 x7 (ix2 n k)) 0 := by
  rw [val_main_v84_apply]
  show max _ (Ideal.ofBits .f32 0x00000000#32) = _
  rw [Ideal.ofBits_zero_f32]

end Cert.ReferenceIdeal.Plain

end
-- ==== Proof.RefLayer4.lean ====
/-
  LAYER 4 OF THE PLAIN PROGRAM, read at an index: the dense product of the activation before it with the layer's weights,
  its rows gathered along the edges' source column and multiplied by the edge weights, scattered with addition along the
  destination column into zeros, the bias added — `conv` of Proof/LibGcnLaw.lean.
-/
import proofs.«107906_j18640158064951_2_alg».proof.Proof.RefBasics
import proofs.«107906_j18640158064951_2_alg».proof.Proof.LibConvForms

noncomputable section

open scoped BigOperators

namespace Cert.ReferenceIdeal.Plain

open Cert.ReferenceIdeal Cert.ReferenceIdeal.Gen Cert.ReferenceIdeal.ReadP Idealize.ShloMosaic Idealize.ShloMosaic.ValueIdx
open Cert.Gcn Cert.Lib.RowOps Cert.MatOps Idealize.ShloMosaic.RealEntries

/-- Layer 4 of the plain form, at `(n, q)`. -/
theorem layer4 (x0 : (⟨S50000x1, .f32⟩ : BufTy).Contents (Elt Ideal)) (x1 : (⟨S2x800000, .i32⟩ : BufTy).Contents (Elt Ideal)) (x2 : (⟨S1x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (n : Fin 50000) (q : Fin 1) :
    val_main_v100 (F := Ideal) x0 x1 x2 x3 x4 x5 x6 x7 x8 x9 (ix2 n q)
      = conv (landsOf x1) (gOf x1) (rc (val_main_v84 (F := Ideal) x0 x1 x2 x3 x4 x5 x6 x7)) (rc x8) (fun q => x9 (ix1 q)) (nrmOf x1) n q := by
  have eS : scatter_S50000x1_S850000x1_S850000x1_1_0_0_1 = rowScatterDims 50000 850000 1 scatter_S50000x1_S850000x1_S850000x1_1_0_0_1_wf := rfl
  have eG : gather_S50000x1_S850000x1_S850000x1_1_0_n_n_0_1_11 = rowGatherDims 50000 850000 1 gather_S50000x1_S850000x1_S850000x1_1_0_n_n_0_1_11_wf := rfl
  have eD : dot_S50000x64_S64x1_S50000x1_1_0_0_1_n_n = plainDot 50000 64 1 dot_S50000x64_S64x1_S50000x1_1_0_0_1_n_n_wf := rfl
  unfold val_main_v100 val_main_v97 val_main_v94 val_main_v92 val_main_v85
  rw [addf_apply, scatterAdd_ideal, eS, eG, eD, scol5, gcol5]
  exact conv_layer_host_apply (N := 50000) (E := 850000) (K := 64) (C := 1) (by decide) gather_S50000x1_S850000x1_S850000x1_1_0_n_n_0_1_11_wf scatter_S50000x1_S850000x1_S850000x1_1_0_0_1_wf dot_S50000x64_S64x1_S50000x1_1_0_0_1_n_n_wf
    (val_main_v95 (F := Ideal)) (fun i => Ideal.ofBits_zero_f32) (val_main_v9 (F := Ideal) x1) (val_main_v21 (F := Ideal) x1)
    (val_main_v84 (F := Ideal) x0 x1 x2 x3 x4 x5 x6 x7) x8 (val_main_v93 (F := Ideal) x1) (val_main_v99 (F := Ideal) x9) (nrmOf x1) (fun q => x9 (ix1 q))
    (fun e q => by
      rw [val_main_v93_apply]
      show val_main_v30 (F := Ideal) x1 _ = val_main_v30 (F := Ideal) x1 (ix1 e)
      exact congrArg (val_main_v30 (F := Ideal) x1) (funext fun a => match a with | ⟨0, _⟩ => rfl))
    (fun n q => by
      rw [val_main_v99_apply, val_main_v98_apply]
      exact congrArg x9 (funext fun a => match a with | ⟨0, _⟩ => Subsingleton.elim (α := Fin 1) _ _))
    n q

end Cert.ReferenceIdeal.Plain

end
-- ==== Proof.RefResult.lean ====
/-
  THE PLAIN PROGRAM'S RESULT, read at an index: its four layers chained — each layer's activation is the clamp at zero of the
  layer before — as four nested `conv` of Proof/LibGcnLaw.lean over the argument arrays.
-/
import proofs.«107906_j18640158064951_2_alg».proof.Proof.RefLayer1
import proofs.«107906_j18640158064951_2_alg».proof.Proof.RefLayer2
import proofs.«107906_j18640158064951_2_alg».proof.Proof.RefLayer3
import proofs.«107906_j18640158064951_2_alg».proof.Proof.RefLayer4

noncomputable section

open scoped BigOperators

namespace Cert.ReferenceIdeal.Plain

open Cert.ReferenceIdeal Cert.ReferenceIdeal.Gen Cert.ReferenceIdeal.ReadP Idealize.ShloMosaic Idealize.ShloMosaic.ValueIdx
open Cert.Gcn Cert.Lib.RowOps Cert.MatOps Idealize.ShloMosaic.RealEntries

/-- THE PLAIN PROGRAM'S RESULT at `(n, q)`: four layers of `conv`, the first three clamped at zero. -/
theorem result_apply (x0 : (⟨S50000x1, .f32⟩ : BufTy).Contents (Elt Ideal)) (x1 : (⟨S2x800000, .i32⟩ : BufTy).Contents (Elt Ideal)) (x2 : (⟨S1x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (n : Fin 50000) (q : Fin 1) :
    val_main_v100 (F := Ideal) x0 x1 x2 x3 x4 x5 x6 x7 x8 x9 (ix2 n q)
      = conv (landsOf x1) (gOf x1) (fun n k => max (conv (landsOf x1) (gOf x1) (fun n k => max (conv (landsOf x1) (gOf x1)
          (fun n k => max (conv (landsOf x1) (gOf x1) (rc x0) (rc x2) (fun q => x3 (ix1 q)) (nrmOf x1) n k) 0)
          (rc x4) (fun q => x5 (ix1 q)) (nrmOf x1) n k) 0) (rc x6) (fun q => x7 (ix1 q)) (nrmOf x1) n k) 0)
          (rc x8) (fun q => x9 (ix1 q)) (nrmOf x1) n q := by
  rw [layer4]
  have e3 : rc (val_main_v84 (F := Ideal) x0 x1 x2 x3 x4 x5 x6 x7) = fun n k => max (conv (landsOf x1) (gOf x1)
      (rc (val_main_v66 (F := Ideal) x0 x1 x2 x3 x4 x5)) (rc x6) (fun q => x7 (ix1 q)) (nrmOf x1) n k) 0 :=
    funext fun n => funext fun k => (relu3 x0 x1 x2 x3 x4 x5 x6 x7 n k).trans (congrArg (max · 0) (layer3 x0 x1 x2 x3 x4 x5 x6 x7 n k))
  have e2 : rc (val_main_v66 (F := Ideal) x0 x1 x2 x3 x4 x5) = fun n k => max (conv (landsOf x1) (gOf x1)
      (rc (val_main_v48 (F := Ideal) x0 x1 x2 x3)) (rc x4) (fun q => x5 (ix1 q)) (nrmOf x1) n k) 0 :=
    funext fun n => funext fun k => (relu2 x0 x1 x2 x3 x4 x5 n k).trans (congrArg (max · 0) (layer2 x0 x1 x2 x3 x4 x5 n k))
  have e1 : rc (val_main_v48 (F := Ideal) x0 x1 x2 x3) = fun n k => max (conv (landsOf x1) (gOf x1)
      (rc x0) (rc x2) (fun q => x3 (ix1 q)) (nrmOf x1) n k) 0 :=
    funext fun n => funext fun k => (relu1 x0 x1 x2 x3 n k).trans (congrArg (max · 0) (layer1 x0 x1 x2 x3 n k))
  rw [e3, e2, e1]

end Cert.ReferenceIdeal.Plain

end
-- ==== Proof.PreReal.lean ====
/-
  FINITE INPUTS ARE REAL. The precondition asks, of each of the nine float inputs, that every entry's absolute value
  lie below +∞, and joins the nine answers by `and`. Where it answers all ones, every entry of every float input is a
  real number: an `and` is one exactly when both sides are, a conjunction over all indices that is one had a one at
  every index, and an extended real whose absolute value `max a (-a)` is below +∞ is neither infinity.
-/
import proofs.«107906_j18640158064951_2_alg».proof.Proof.Gen.Pre_finite_inputs
import proofs.«107906_j18640158064951_2_alg».proof.Proof.LibReal
import Idealize.ShloMosaic.Lib.ReduceAll
import Idealize.ShloMosaic.Lib.ValueIdx
import Idealize.ShloMosaic.Lib.Affine

noncomputable section

namespace Cert.Pre_finite_inputs.RealInputs

open Cert.Pre_finite_inputs Idealize.ShloMosaic Idealize.ShloMosaic.RealEntries

instance : Subsingleton S_.Idx := ⟨fun a b => funext fun d => d.elim0⟩

/-- The pattern `0x7F800000` denotes +∞. -/
theorem ofBits_inf : Ideal.ofBits .f32 0x7F800000#32 = ⊤ := by
  simp [Ideal.ofBits, Ideal.ieee]

/-- An entry whose comparison `|a| < +∞` answers one is a real number. -/
theorem real_of_lt_inf (a : EReal) (e : Ideal.cmp .olt (max a (-a)) (Ideal.ofBits .f32 0x7F800000#32) = 1#1) : IsReal a := by
  rw [ofBits_inf] at e
  apply isReal_of_abs_lt_top
  by_contra hlt
  have : Ideal.cmp .olt (max a (-a)) ⊤ = 0#1 := by simp [Ideal.cmp, hlt]
  rw [this] at e
  exact absurd e (by decide)

/-- Where the precondition answers all ones, every entry of every float input is a real number. -/
theorem real_of_pre (a0 : FVec Ideal S50000x1 .f32) (a1 : IVec S2x800000 32) (a2 : FVec Ideal S1x256 .f32)
    (a3 : FVec Ideal S256 .f32) (a4 : FVec Ideal S256x128 .f32) (a5 : FVec Ideal S128 .f32) (a6 : FVec Ideal S128x64 .f32)
    (a7 : FVec Ideal S64 .f32) (a8 : FVec Ideal S64x1 .f32) (a9 : FVec Ideal S1 .f32)
    (h : fn (F := Ideal) a0 a1 a2 a3 a4 a5 a6 a7 a8 a9 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) := by
  have h0 := congrFun h ValueIdx.ix0
  dsimp only [fn, fn_part1, fn_part2] at h0
  simp only [andi, IntOp.andi_eq_one] at h0
  obtain ⟨⟨⟨⟨⟨⟨⟨⟨e0, e2⟩, e3⟩, e4⟩, e5⟩, e6⟩, e7⟩, e8⟩, e9⟩ := h0
  exact ⟨fun i => real_of_lt_inf (a0 i) (Host.reduce_andi_all _ _ _ _ _ e0 i),
    fun i => real_of_lt_inf (a2 i) (Host.reduce_andi_all _ _ _ _ _ e2 i),
    fun i => real_of_lt_inf (a3 i) (Host.reduce_andi_all _ _ _ _ _ e3 i),
    fun i => real_of_lt_inf (a4 i) (Host.reduce_andi_all _ _ _ _ _ e4 i),
    fun i => real_of_lt_inf (a5 i) (Host.reduce_andi_all _ _ _ _ _ e5 i),
    fun i => real_of_lt_inf (a6 i) (Host.reduce_andi_all _ _ _ _ _ e6 i),
    fun i => real_of_lt_inf (a7 i) (Host.reduce_andi_all _ _ _ _ _ e7 i),
    fun i => real_of_lt_inf (a8 i) (Host.reduce_andi_all _ _ _ _ _ e8 i),
    fun i => real_of_lt_inf (a9 i) (Host.reduce_andi_all _ _ _ _ _ e9 i)⟩

end Cert.Pre_finite_inputs.RealInputs

end
-- ==== Proof.lean ====
/-
  The five claims. The three frames are the generated runs (the plain program's frame is its generated run with the
  result dropped). The device program has no sanctioned rewrite, so `preserves` is `True`. The value claim: at the
  exact instance, from memories agreeing on the ten arguments, the device program ends with its result buffer at the
  scaled form (rows scaled by the node factor `d = deg^(-1/2)` before they are collected along the edges and once more
  after) and the plain program at the plain form (each edge weighted by `d (source) · d (destination)`); under the
  precondition every float entry is a real number, the node factor is a real number whatever the degree, and the two
  forms are then equal layer by layer (Proof/LibGcnLaw.lean: a real factor leaves a finite sum of real terms).
-/
import proofs.«107906_j18640158064951_2_alg».proof.Defs
import proofs.«107906_j18640158064951_2_alg».proof.Proof.Gen.Kernel
import proofs.«107906_j18640158064951_2_alg».proof.Proof.Gen.Kernel.Skeleton
import proofs.«107906_j18640158064951_2_alg».proof.Proof.Gen.Kernel.Launch
import proofs.«107906_j18640158064951_2_alg».proof.Proof.Gen.Kernel.Points
import proofs.«107906_j18640158064951_2_alg».proof.Proof.Gen.Kernel.Frame
import proofs.«107906_j18640158064951_2_alg».proof.Proof.Gen.KernelIdeal
import proofs.«107906_j18640158064951_2_alg».proof.Proof.Gen.KernelIdeal.Skeleton
import proofs.«107906_j18640158064951_2_alg».proof.Proof.Gen.KernelIdeal.Launch
import proofs.«107906_j18640158064951_2_alg».proof.Proof.Gen.KernelIdeal.Points
import proofs.«107906_j18640158064951_2_alg».proof.Proof.Gen.KernelIdeal.Frame
import proofs.«107906_j18640158064951_2_alg».proof.Proof.Gen.ReferenceIdeal
import proofs.«107906_j18640158064951_2_alg».proof.Proof.Gen.Pre_finite_inputs
import proofs.«107906_j18640158064951_2_alg».proof.Proof.RefRun
import proofs.«107906_j18640158064951_2_alg».proof.Proof.RefRead
import proofs.«107906_j18640158064951_2_alg».proof.Proof.KernelRun
import proofs.«107906_j18640158064951_2_alg».proof.Proof.Stage4
import proofs.«107906_j18640158064951_2_alg».proof.Proof.RefResult
import proofs.«107906_j18640158064951_2_alg».proof.Proof.PreReal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The two programs end with equal results: the scaled form and the plain form of four layers agree on real entries. -/
theorem algebraic : Cert.algebraic_KernelIdeal_ReferenceIdeal := by
  intro m ρ m' ρ' hpre hagree
  refine ⟨fun c => Cert.KernelIdeal.Gen.W11 m ρ c (Proc.devRef .tc Cert.KernelIdeal.main_v71),
    Cert.KernelIdeal.RunValue.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨g0, g1, g2, g3, g4, g5, g6, g7, g8, g9⟩ := hagree c
  obtain ⟨r0, r2, r3, r4, r5, r6, r7, r8, r9⟩ :=
    Cert.Pre_finite_inputs.RealInputs.real_of_pre _ _ _ _ _ _ _ _ _ _ (hpre c)
  rw [Cert.ReferenceIdeal.ReadP.val_main_v100_eq, g0, g1, g2, g3, g4, g5, g6, g7, g8, g9]
  funext i
  obtain ⟨n, q, rfl⟩ : ∃ (n : Fin 50000) (q : Fin 1), i = ValueIdx.ix2 n q := ⟨i 0, i 1, ValueIdx.eq_ix2 i⟩
  rw [Cert.ReferenceIdeal.Plain.result_apply]
  refine (Cert.Gcn.four_layers _ _ _ (fun n k => r0 _) (fun k q => r2 _) (fun k => r3 _) (fun k q => r4 _) (fun k => r5 _)
    (fun k q => r6 _) (fun k => r7 _) (fun k q => r8 _) (Cert.ReferenceIdeal.Plain.isReal_dOf _)
    (Cert.ReferenceIdeal.Plain.nrm_of_lands _) n q).trans ?_
  exact (Cert.KernelIdeal.Stages.result_apply m ρ c n q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
